-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x32 : Shape := ⟨2, ![131072, 32]⟩
abbrev S64x32 : Shape := ⟨2, ![64, 32]⟩
abbrev S64x33 : Shape := ⟨2, ![64, 33]⟩
abbrev S_ : Shape := ⟨0, ![]⟩

class Facts : Prop where
  bcast_S_S131072x32 : S_.BroadcastsInDim S131072x32 (![] : Fin 0 → Fin S131072x32.rank)
  reducesTo_S131072x32_S_d0_1 : S131072x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64x33 : S_.BroadcastsInDim S64x33 (![] : Fin 0 → Fin S64x33.rank)
  reducesTo_S64x33_S_d0_1 : S64x33.ReducesTo [0, 1] S_

variable [Facts]

def fn_part1 {F : FTy → Type} [FloatOps F] (main_arg2 : FVec F S64x32 .f32) (main_v13 : IVec S_ 1) (main_v16 : IVec S64x33 1) : IVec S_ 1 :=
  let main_c_5 : IVec S_ 1 := constantI S_ 1 1#1
  let main_v17 : IVec S_ 1 := (fun x v => Host.reduce IntOp.andi x v reducesTo_S64x33_S_d0_1 h_S_) main_v16 main_c_5
  let main_v18 : IVec S_ 1 := andi main_v13 main_v17
  let main_cst_6 : FVec F S_ .f32 := constant S_ .f32 0x00000000#32
  let main_v19 : FVec F S64x32 .f32 := broadcastInDim S64x32 ![] bcast_S_S64x32 main_cst_6
  let main_v20 : IVec S64x32 1 := cmpf .une main_arg2 main_v19
  let main_c_7 : IVec S_ 1 := constantI S_ 1 1#1
  let main_v21 : IVec S_ 1 := (fun x v => Host.reduce IntOp.andi x v reducesTo_S64x32_S_d0_1 h_S_) main_v20 main_c_7
  let main_v22 : IVec S_ 1 := andi main_v18 main_v21
  main_v22

def fn {F : FTy → Type} [FloatOps F] (main_arg0 : FVec F S131072x32 .f32) (main_arg1 : FVec F S64x32 .f32) (main_arg2 : FVec F S64x32 .f32) (main_arg3 : FVec F S64x33 .f32) : IVec S_ 1 :=
  let main_v0 : FVec F S131072x32 .f32 := Host.absf main_arg0
  let main_cst : FVec F S_ .f32 := constant S_ .f32 0x7F800000#32
  let main_v1 : FVec F S131072x32 .f32 := broadcastInDim S131072x32 ![] bcast_S_S131072x32 main_cst
  let main_v2 : IVec S131072x32 1 := cmpf .olt main_v0 main_v1
  let main_c : IVec S_ 1 := constantI S_ 1 1#1
  let main_v3 : IVec S_ 1 := (fun x v => Host.reduce IntOp.andi x v reducesTo_S131072x32_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64x33 .f32 := Host.absf main_arg3
  let main_cst_4 : FVec F S_ .f32 := constant S_ .f32 0x7F800000#32
  let main_v15 : FVec F S64x33 .f32 := broadcastInDim S64x33 ![] bcast_S_S64x33 main_cst_4
  let main_v16 : IVec S64x33 1 := cmpf .olt main_v14 main_v15
  fn_part1 (F := F) main_arg2 main_v13 main_v16
-- ==== Kernel.lean ====
abbrev S131072x32 : Shape := ⟨2, ![131072, 32]⟩
abbrev S64x32 : Shape := ⟨2, ![64, 32]⟩
abbrev S64x33 : Shape := ⟨2, ![64, 33]⟩
abbrev S_ : Shape := ⟨0, ![]⟩
abbrev S32x64 : Shape := ⟨2, ![32, 64]⟩
abbrev S64 : Shape := ⟨1, ![64]⟩
abbrev S64x1 : Shape := ⟨2, ![64, 1]⟩
abbrev S1x64 : Shape := ⟨2, ![1, 64]⟩
abbrev S65x64 : Shape := ⟨2, ![65, 64]⟩
abbrev S131072 : Shape := ⟨1, ![131072]⟩
abbrev S4096x32 : Shape := ⟨2, ![4096, 32]⟩
abbrev S4096 : Shape := ⟨1, ![4096]⟩
abbrev S4096x1 : Shape := ⟨2, ![4096, 1]⟩
abbrev S4096x65 : Shape := ⟨2, ![4096, 65]⟩
abbrev S4096x64 : Shape := ⟨2, ![4096, 64]⟩

abbrev nBuf : Space → Nat
  | .hbm => 31
  | .vmem => 7
  | .smem => 0
  | _ => 0

abbrev bufTy : (tb : Table) → Fin (tcTables nBuf tb) → BufTy
  | .hbm, ⟨0, _⟩ => ⟨S131072x32, .f32⟩
  | .hbm, ⟨1, _⟩ => ⟨S64x32, .f32⟩
  | .hbm, ⟨2, _⟩ => ⟨S64x32, .f32⟩
  | .hbm, ⟨3, _⟩ => ⟨S64x33, .f32⟩
  | .hbm, ⟨4, _⟩ => ⟨S_, .f32⟩
  | .hbm, ⟨5, _⟩ => ⟨S64x32, .f32⟩
  | .hbm, ⟨6, _⟩ => ⟨S64x32, .f32⟩
  | .hbm, ⟨7, _⟩ => ⟨S64x32, .f32⟩
  | .hbm, ⟨8, _⟩ => ⟨S_, .f32⟩
  | .hbm, ⟨9, _⟩ => ⟨S64x32, .f32⟩
  | .hbm, ⟨10, _⟩ => ⟨S64x32, .f32⟩
  | .hbm, ⟨11, _⟩ => ⟨S32x64, .f32⟩
  | .hbm, ⟨12, _⟩ => ⟨S_, .f32⟩
  | .hbm, ⟨13, _⟩ => ⟨S64x32, .f32⟩
  | .hbm, ⟨14, _⟩ => ⟨S64x32, .f32⟩
  | .hbm, ⟨15, _⟩ => ⟨S64x32, .f32⟩
  | .hbm, ⟨16, _⟩ => ⟨S32x64, .f32⟩
  | .hbm, ⟨17, _⟩ => ⟨S64x32, .f32⟩
  | .hbm, ⟨18, _⟩ => ⟨S64x32, .f32⟩
  | .hbm, ⟨19, _⟩ => ⟨S_, .f32⟩
  | .hbm, ⟨20, _⟩ => ⟨S64, .f32⟩
  | .hbm, ⟨21, _⟩ => ⟨S64x1, .f32⟩
  | .hbm, ⟨22, _⟩ => ⟨S1x64, .f32⟩
  | .hbm, ⟨23, _⟩ => ⟨S65x64, .f32⟩
  | .hbm, ⟨24, _⟩ => ⟨S64x32, .f32⟩
  | .hbm, ⟨25, _⟩ => ⟨S64x1, .f32⟩
  | .hbm, ⟨26, _⟩ => ⟨S64, .f32⟩
  | .hbm, ⟨27, _⟩ => ⟨S1x64, .f32⟩
  | .hbm, ⟨28, _⟩ => ⟨S32x64, .f32⟩
  | .hbm, ⟨29, _⟩ => ⟨S32x64, .bf16⟩
  | .hbm, ⟨30, _⟩ => ⟨S131072, .f32⟩
  | .local _ .vmem, ⟨0, _⟩ => ⟨S4096x32, .f32⟩
  | .local _ .vmem, ⟨1, _⟩ => ⟨S4096x32, .f32⟩
  | .local _ .vmem, ⟨2, _⟩ => ⟨S65x64, .f32⟩
  | .local _ .vmem, ⟨3, _⟩ => ⟨S32x64, .bf16⟩
  | .local _ .vmem, ⟨4, _⟩ => ⟨S1x64, .f32⟩
  | .local _ .vmem, ⟨5, _⟩ => ⟨S4096, .f32⟩
  | .local _ .vmem, ⟨6, _⟩ => ⟨S4096, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S65x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x32 : S_.BroadcastsInDim S64x32 (![] : Fin 0 → Fin S64x32.rank)
  transposes_S64x32_S32x64_1_0 : S64x32.Transposes [1, 0] S32x64
  reducesTo_S64x32_S64_d1 : S64x32.ReducesTo [1] S64
  h_S_ : 0 < S_.numel
  bcast_S64_S64x1_0 : S64.BroadcastsInDim S64x1 (![0] : Fin 1 → Fin S64x1.rank)
  transposes_S64x1_S1x64_1_0 : S64x1.Transposes [1, 0] S1x64
  concatenates_S32x64_S32x64_S1x64_S65x64_d0 : Shape.Concatenates [S32x64, S32x64, S1x64] S65x64 0
  slices_S64x33_S64x32_0_0 : S64x33.Slices ![0, 0] S64x32
  slices_S64x33_S64x1_0_32 : S64x33.Slices ![0, 32] S64x1
  shapeCasts_S64x1_S64 : S64x1.ShapeCasts S64
  shapeCasts_S64_S1x64 : S64.ShapeCasts S1x64
  bitsLt_bf16_f32 : FTy.bits .bf16 < FTy.bits .f32
  inb_S4096x32_S4096x32_0_0 : ∀ a, (![0, 0] : Fin 2 → Nat) a + S4096x32.size a ≤ S4096x32.size a
  h_S4096x32 : 0 < S4096x32.numel
  concatenates_S4096x32_S4096x32_S4096x1_S4096x65_d1 : Shape.Concatenates [S4096x32, S4096x32, S4096x1] S4096x65 1
  inb_S65x64_S65x64_0_0 : ∀ a, (![0, 0] : Fin 2 → Nat) a + S65x64.size a ≤ S65x64.size a
  h_S65x64 : 0 < S65x64.numel
  shapeCasts_S65x64_S65x64 : S65x64.ShapeCasts S65x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  inb_S4096_S4096_0 : ∀ a, (![0] : Fin 1 → Nat) a + S4096.size a ≤ S4096.size a
  h_S4096 : 0 < S4096.numel
  dot_S4096x65_S65x64_S4096x64_1_0_0_1_n_n_wf : DotDims.WF S4096x65 S65x64 S4096x64 [1] [0] [0] [1] [] []
  dot_S4096x32_S32x64_S4096x64_1_0_0_1_n_n_wf : DotDims.WF S4096x32 S32x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S131072x32.size a
  hwx0_0 : ∀ i : grid0.Coords, EltTy.bits .f32 = 32 ∨ (Rect.block (s := S131072x32) S4096x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S65x64.size a ≤ S65x64.size a
  hwx0_1 : ∀ i : grid0.Coords, EltTy.bits .f32 = 32 ∨ (Rect.block (s := S65x64) S65x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .bf16 = 32 ∨ (Rect.block (s := S32x64) S32x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S131072.size a
  hwx0_4 : ∀ i : grid0.Coords, EltTy.bits .f32 = 32 ∨ (Rect.block (s := S131072) S4096.size (cc0_transform_4 i) (hinb0_4 i)).WholeWords (EltTy.packing .f32)

variable [Facts₀]

def dot_S4096x65_S65x64_S4096x64_1_0_0_1_n_n : DotDims S4096x65 S65x64 S4096x64 where
  lhsContracting := [1]
  rhsContracting := [0]
  lhsNonContracting := [0]
  rhsNonContracting := [1]
  lhsBatch := []
  rhsBatch := []
  wf := dot_S4096x65_S65x64_S4096x64_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf

abbrev win0_0 : Pipeline.Window sig grid0 :=
  Pipeline.Window.ofSpec (Memref.whole main_arg0) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S65x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x32 : Shape := ⟨2, ![131072, 32]⟩
abbrev S64x32 : Shape := ⟨2, ![64, 32]⟩
abbrev S64x33 : Shape := ⟨2, ![64, 33]⟩
abbrev S131072x64 : Shape := ⟨2, ![131072, 64]⟩
abbrev S64x1 : Shape := ⟨2, ![64, 1]⟩
abbrev S64 : Shape := ⟨1, ![64]⟩
abbrev S1x64 : Shape := ⟨2, ![1, 64]⟩
abbrev S131072x1x32 : Shape := ⟨3, ![131072, 1, 32]⟩
abbrev S1x64x32 : Shape := ⟨3, ![1, 64, 32]⟩
abbrev S131072x64x32 : Shape := ⟨3, ![131072, 64, 32]⟩
abbrev S_ : Shape := ⟨0, ![]⟩
abbrev S131072 : Shape := ⟨1, ![131072]⟩

abbrev nBuf : Space → Nat
  | .hbm => 37
  | .vmem => 0
  | .smem => 0
  | _ => 0

abbrev bufTy : (tb : Table) → Fin (tcTables nBuf tb) → BufTy
  | .hbm, ⟨0, _⟩ => ⟨S131072x32, .f32⟩
  | .hbm, ⟨1, _⟩ => ⟨S64x32, .f32⟩
  | .hbm, ⟨2, _⟩ => ⟨S64x32, .f32⟩
  | .hbm, ⟨3, _⟩ => ⟨S64x33, .f32⟩
  | .hbm, ⟨4, _⟩ => ⟨S64x32, .f32⟩
  | .hbm, ⟨5, _⟩ => ⟨S131072x64, .f32⟩
  | .hbm, ⟨6, _⟩ => ⟨S64x1, .f32⟩
  | .hbm, ⟨7, _⟩ => ⟨S64, .f32⟩
  | .hbm, ⟨8, _⟩ => ⟨S1x64, .f32⟩
  | .hbm, ⟨9, _⟩ => ⟨S131072x64, .f32⟩
  | .hbm, ⟨10, _⟩ => ⟨S131072x64, .f32⟩
  | .hbm, ⟨11, _⟩ => ⟨S131072x1x32, .f32⟩
  | .hbm, ⟨12, _⟩ => ⟨S1x64x32, .f32⟩
  | .hbm, ⟨13, _⟩ => ⟨S131072x64x32, .f32⟩
  | .hbm, ⟨14, _⟩ => ⟨S131072x64x32, .f32⟩
  | .hbm, ⟨15, _⟩ => ⟨S131072x64x32, .f32⟩
  | .hbm, ⟨16, _⟩ => ⟨S131072x64x32, .f32⟩
  | .hbm, ⟨17, _⟩ => ⟨S_, .f32⟩
  | .hbm, ⟨18, _⟩ => ⟨S64x32, .f32⟩
  | .hbm, ⟨19, _⟩ => ⟨S64x32, .f32⟩
  | .hbm, ⟨20, _⟩ => ⟨S64x32, .f32⟩
  | .hbm, ⟨21, _⟩ => ⟨S1x64x32, .f32⟩
  | .hbm, ⟨22, _⟩ => ⟨S131072x64x32, .f32⟩
  | .hbm, ⟨23, _⟩ => ⟨S131072x64x32, .f32⟩
  | .hbm, ⟨24, _⟩ => ⟨S_, .f32⟩
  | .hbm, ⟨25, _⟩ => ⟨S131072x64, .f32⟩
  | .hbm, ⟨26, _⟩ => ⟨S131072x64, .f32⟩
  | .hbm, ⟨27, _⟩ => ⟨S131072x64, .f32⟩
  | .hbm, ⟨28, _⟩ => ⟨S131072x64, .f32⟩
  | .hbm, ⟨29, _⟩ => ⟨S_, .f32⟩
  | .hbm, ⟨30, _⟩ => ⟨S131072, .f32⟩
  | .hbm, ⟨31, _⟩ => ⟨S_, .f32⟩
  | .hbm, ⟨32, _⟩ => ⟨S131072, .f32⟩
  | .hbm, ⟨33, _⟩ => ⟨S_, .f32⟩
  | .hbm, ⟨34, _⟩ => ⟨S131072, .f32⟩
  | .hbm, ⟨35, _⟩ => ⟨S131072, .f32⟩
  | .hbm, ⟨36, _⟩ => ⟨S131072, .f32⟩
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  slices_S64x33_S64x32_0_0 : S64x33.Slices ![0, 0] S64x32
  slices_S64x33_S64x1_0_32 : S64x33.Slices ![0, 32] S64x1
  shapeCasts_S64x1_S64 : S64x1.ShapeCasts S64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S131072x32_S131072x1x32_0_2 : S131072x32.BroadcastsInDim S131072x1x32 (![0, 2] : Fin 2 → Fin S131072x1x32.rank)
  bcast_S64x32_S1x64x32_1_2 : S64x32.BroadcastsInDim S1x64x32 (![1, 2] : Fin 2 → Fin S1x64x32.rank)
  bcast_S131072x1x32_S131072x64x32_0_1_2 : S131072x1x32.BroadcastsInDim S131072x64x32 (![0, 1, 2] : Fin 3 → Fin S131072x64x32.rank)
  bcast_S1x64x32_S131072x64x32_0_1_2 : S1x64x32.BroadcastsInDim S131072x64x32 (![0, 1, 2] : Fin 3 → Fin S131072x64x32.rank)
  bcast_S_S64x32 : S_.BroadcastsInDim S64x32 (![] : Fin 0 → Fin S64x32.rank)
  reducesTo_S131072x64x32_S131072x64_d2 : S131072x64x32.ReducesTo [2] S131072x64
  h_S_ : 0 < S_.numel
  reducesTo_S131072x64_S131072_d1 : S131072x64.ReducesTo [1] S131072
  bcast_S_S131072 : S_.BroadcastsInDim S131072 (![] : Fin 0 → Fin S131072.rank)
  dot_S131072x32_S64x32_S131072x64_1_1_0_0_n_n_wf : DotDims.WF S131072x32 S64x32 S131072x64 [1] [1] [0] [0] [] []

variable [Facts₀]

def dot_S131072x32_S64x32_S131072x64_1_1_0_0_n_n : DotDims S131072x32 S64x32 S131072x64 where
  lhsContracting := [1]
  rhsContracting := [1]
  lhsNonContracting := [0]
  rhsNonContracting := [0]
  lhsBatch := []
  rhsBatch := []
  wf := dot_S131072x32_S64x32_S131072x64_1_1_0_0_n_n_wf

class Facts : Prop extends Facts₀ where

variable [Facts]
-- ==== Proof.KernelRun.lean ====
/-
  The run of `Kernel`'s @main, at any float instance: the host lines build the three operands the pallas_call
  stages beside the input (the 65×64 weight table `[c ; -2·μ·c ; Σ_a μ²·c]` with `c = 1/(2σσ)`, transposed;
  the 32×64 transposed slope table; the 1×64 bias row), and the one region then visits the 32 row blocks
  of the input in order. At each block the body reads its four input blocks whole, reads (and ignores) the
  output block, and overwrites the output block whole with one value computed from the four inputs; nothing
  is carried from one block to the next.

  So the data of the run is simple: every input window's staging buffer holds the window's block of its
  array as the region found it, at every point, fetched there or not; the output window's buffer after the
  body holds the body's one stored value of those four blocks. From this the library's frame theorem gives the
  run: every execution ends, nothing faults, the output array ends at the write-backs of those values, and every
  other unscoped buffer ends as the region found it. The four argument arrays are written by no host line, so
  the region finds them as launched, and they end as launched.
-/
import proofs.«112125_j89601607729513_2_alg».proof.Proof.Gen.Kernel.Launch
import proofs.«112125_j89601607729513_2_alg».proof.Proof.Gen.Kernel.Skeleton
import proofs.«112125_j89601607729513_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers once the host lines before the pallas_call have run. -/
abbrev atEntry (c : Dev nD) (b : Ref sig .tc) : Buf (Elt F) ((c : Thread nD τ).loc b) :=
  StableHlo.after (List.flatten [hostOps0]) (fun b => m (c, b)) b

/-- No host line allocates a buffer. -/
theorem hostOps0_fresh : (hostOps0 : List (HloOp τ sig (Elt F))).Forall fun op => op.fresh = ∅ := by
  simp only [List.Forall]; repeat' constructor

/-- @main is its host lines followed by the region, and the region starts from `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (show List.Forall _ hostOps0 from hostOps0_sub)
    (show List.Forall _ hostOps0 from hostOps0_fresh) main_chain

/-- A buffer no host line writes is found as launched. Each host line writes its one result buffer, and
    none of those is an argument. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## A window's block at a point -/

/-- Window `w`'s block at point `t`: its rectangle of the window's array as the region found it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point: where the point fetches it, by
    the fetch; where it does not (the three tables after the first point), the block index has not moved and
    the body left the buffer as it was. -/
theorem staged0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The body's rectangles and what it leaves in the output block -/

abbrev rX : Rect S4096x32 := Rect.unit (s := S4096x32) ![0, 0] S4096x32.size inb_S4096x32_S4096x32_0_0
abbrev rW : Rect S65x64 := Rect.unit (s := S65x64) ![0, 0] S65x64.size inb_S65x64_S65x64_0_0
abbrev rS : Rect S32x64 := Rect.unit (s := S32x64) ![0, 0] S32x64.size inb_S32x64_S32x64_0_0
abbrev rB : Rect S1x64 := Rect.unit (s := S1x64) ![0, 0] S1x64.size inb_S1x64_S1x64_0_0
abbrev rO : Rect S4096 := Rect.unit (s := S4096) ![0] S4096.size inb_S4096_S4096_0

/-- The output block after the body: its one whole-block store, of the body's value of the four input blocks. -/
def outBlock (x : Vec F S4096x32 .f32) (w : Vec F S65x64 .f32) (s : Vec F S32x64 .bf16) (b : Vec F S1x64 .f32) : Vec F S4096 .f32 :=
  View.canon [⟨rO, k0_pay1 (View.ld x rX) (View.ld w rW) (View.ld s rS) (View.ld b rB)⟩]

/-- The one store's rectangle is the whole block. -/
theorem out_covered (p0 : Vec F S4096 .f32) (y : S4096.Idx) :
    ∃ pc ∈ ([⟨rO, p0⟩] : List (View.Piece (Elt F) S4096 .f32)), y ∈ pc.1.set :=
  View.cover_of_tiled [⟨rO, p0⟩] S4096.size (by rfl) y

/-! ## The body -/

set_option maxHeartbeats 1000000 in
/-- The body on whole staging buffers — the four inputs' at contents `x w s b`, the output's at anything — runs
    to its end leaving the inputs' as they were and the output's at `outBlock x w s b`. -/
theorem body_runs (c : Dev nD) (E : Set ℕ) (i : grid0.Coords)
    (a1 : Memref sig .tc .vmem S4096x32 .f32) (h1 : a1.IsWhole) (a2 : Memref sig .tc .vmem S65x64 .f32) (h2 : a2.IsWhole)
    (a3 : Memref sig .tc .vmem S32x64 .bf16) (h3 : a3.IsWhole) (a4 : Memref sig .tc .vmem S1x64 .f32) (h4 : a4.IsWhole)
    (a5 : Memref sig .tc .vmem S4096 .f32) (h5 : a5.IsWhole)
    (x : Vec F S4096x32 .f32) (w : Vec F S65x64 .f32) (s : Vec F S32x64 .bf16) (b : Vec F S1x64 .f32) (K : PUnit → sProp 𝕄) :
    iprop(owns (c : Thread nD τ) a1 fullShare x ∗ owns (c : Thread nD τ) a2 fullShare w ∗ owns (c : Thread nD τ) a3 fullShare s
        ∗ owns (c : Thread nD τ) a4 fullShare b ∗ (∃ d, owns (c : Thread nD τ) a5 fullShare d)
        ∗ (iprop(owns (c : Thread nD τ) a1 fullShare x ∗ owns (c : Thread nD τ) a2 fullShare w ∗ owns (c : Thread nD τ) a3 fullShare s
            ∗ owns (c : Thread nD τ) a4 fullShare b ∗ owns (c : Thread nD τ) a5 fullShare (outBlock x w s b)) -∗ K ⟨⟩))
      ⊢ wp frame (wpE (defs₀ (F := F)) Variants.none c none) E (cc0__kernel i a1 h1 a2 h2 a3 h3 a4 h4 a5 h5) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (out_covered _)

/-! ## The data of the run -/

/-- On core `c`: the arrays as the region finds them; after the body at point `t` each input's buffer at its
    block and the output's at `outBlock` of the four input blocks; nothing else held, nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => outBlock (blockAt m c 0 t) (blockAt m c 1 t) (blockAt m c 2 t) (blockAt m c 3 t)
  Φ _ := Pipeline.ΦA spec0 c
  q _ := fullShare
  owed _ := 0

theorem arrays_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) :
    (dats m 0 c).after 4 t = outBlock (blockAt m c 0 t) (blockAt m c 1 t) (blockAt m c 2 t) (blockAt m c 3 t) := by dsimp only [dats]

theorem before_0 (c : Dev nD) (t : Fin cfg0.N) (d) : (dats m 0 c).before 0 t d = blockAt m c 0 t :=
  staged0 m (dats m 0 c) (arrays_eq m c 0) (after_0 m c) t d
theorem before_1 (c : Dev nD) (t : Fin cfg0.N) (d) : (dats m 0 c).before 1 t d = blockAt m c 1 t :=
  staged1 m (dats m 0 c) (arrays_eq m c 1) (after_1 m c) t d
theorem before_2 (c : Dev nD) (t : Fin cfg0.N) (d) : (dats m 0 c).before 2 t d = blockAt m c 2 t :=
  staged2 m (dats m 0 c) (arrays_eq m c 2) (after_2 m c) t d
theorem before_3 (c : Dev nD) (t : Fin cfg0.N) (d) : (dats m 0 c).before 3 t d = blockAt m c 3 t :=
  staged3 m (dats m 0 c) (arrays_eq m c 3) (after_3 m c) t d

/-! ## The body at a point of the grid -/

def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the four input buffers hold their blocks, so the body runs as `body_runs` says; what else is
    held passes through untouched. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_runs c Set.univ _ _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem every_point (c : Dev nD) : BodyObligation (dats (F := F) m 0 c) (defs₀ (F := F)) Variants.none () Set.univ := fun t => by
  rw [bigSep_W0, bigSep_W0]
  exact point_runs m c t

/-! ## The run -/

set_option backward.isDefEq.respectTransparency.types false in
/-- Every weakly fair execution of @main ends without a fault, the output array at the write-backs of
    `outBlock` and every other unscoped buffer as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (every_point m c).loose) (hshare := fun c => (dats m 0 c).share_full fun _ => rfl)
    (howed := fun _ _ => rfl) (V := atEntry m) (hmain := main_to_region m Variants.none) (hA := arrays_eq m) (hΦ := fun _ _ => rfl)

/-- The argument arrays end as launched: the input is a staged array no point writes back, the other three no
    window's array; the region found all four as launched. -/
theorem args_kept {r : PUnit × MemSt nD τ sig (Elt F)} (h : Pipeline.FramePost cfgs (dats m) 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((arrays_eq m c 0).trans (atEntry_arg0 m c))),
    ((h c).2 main_arg1 (Pipeline.mem_restRefs_of main_arg1 (by decide) (by decide))).trans (atEntry_arg1 m c),
    ((h c).2 main_arg2 (Pipeline.mem_restRefs_of main_arg2 (by decide) (by decide))).trans (atEntry_arg2 m c),
    ((h c).2 main_arg3 (Pipeline.mem_restRefs_of main_arg3 (by decide) (by decide))).trans (atEntry_arg3 m c)⟩

/-- The frame: @main runs to its end and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => args_kept m h c) (run_main m ρ)

end Cert.Kernel.Run

end
-- ==== Proof.KernelIdealRun.lean ====
/-
  The run of `KernelIdeal`'s @main, at any float instance: the host lines build the three operands the pallas_call
  stages beside the input (the 65×64 weight table `[c ; -2·μ·c ; Σ_a μ²·c]` with `c = 1/(2σσ)`, transposed;
  the 32×64 transposed slope table; the 1×64 bias row), and the one region then visits the 32 row blocks
  of the input in order. At each block the body reads its four input blocks whole, reads (and ignores) the
  output block, and overwrites the output block whole with one value computed from the four inputs; nothing
  is carried from one block to the next.

  So the data of the run is simple: every input window's staging buffer holds the window's block of its
  array as the region found it, at every point, fetched there or not; the output window's buffer after the
  body holds the body's one stored value of those four blocks. From this the library's frame theorem gives the
  run: every execution ends, nothing faults, the output array ends at the write-backs of those values, and every
  other unscoped buffer ends as the region found it. The four argument arrays are written by no host line, so
  the region finds them as launched, and they end as launched.
-/
import proofs.«112125_j89601607729513_2_alg».proof.Proof.Gen.KernelIdeal.Launch
import proofs.«112125_j89601607729513_2_alg».proof.Proof.Gen.KernelIdeal.Skeleton
import proofs.«112125_j89601607729513_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers once the host lines before the pallas_call have run. -/
abbrev atEntry (c : Dev nD) (b : Ref sig .tc) : Buf (Elt F) ((c : Thread nD τ).loc b) :=
  StableHlo.after (List.flatten [hostOps0]) (fun b => m (c, b)) b

/-- No host line allocates a buffer. -/
theorem hostOps0_fresh : (hostOps0 : List (HloOp τ sig (Elt F))).Forall fun op => op.fresh = ∅ := by
  simp only [List.Forall]; repeat' constructor

/-- @main is its host lines followed by the region, and the region starts from `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (show List.Forall _ hostOps0 from hostOps0_sub)
    (show List.Forall _ hostOps0 from hostOps0_fresh) main_chain

/-- A buffer no host line writes is found as launched. Each host line writes its one result buffer, and
    none of those is an argument. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## A window's block at a point -/

/-- Window `w`'s block at point `t`: its rectangle of the window's array as the region found it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point: where the point fetches it, by
    the fetch; where it does not (the three tables after the first point), the block index has not moved and
    the body left the buffer as it was. -/
theorem staged0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The body's rectangles and what it leaves in the output block -/

abbrev rX : Rect S4096x32 := Rect.unit (s := S4096x32) ![0, 0] S4096x32.size inb_S4096x32_S4096x32_0_0
abbrev rW : Rect S65x64 := Rect.unit (s := S65x64) ![0, 0] S65x64.size inb_S65x64_S65x64_0_0
abbrev rS : Rect S32x64 := Rect.unit (s := S32x64) ![0, 0] S32x64.size inb_S32x64_S32x64_0_0
abbrev rB : Rect S1x64 := Rect.unit (s := S1x64) ![0, 0] S1x64.size inb_S1x64_S1x64_0_0
abbrev rO : Rect S4096 := Rect.unit (s := S4096) ![0] S4096.size inb_S4096_S4096_0

/-- The output block after the body: its one whole-block store, of the body's value of the four input blocks. -/
def outBlock (x : Vec F S4096x32 .f32) (w : Vec F S65x64 .f32) (s : Vec F S32x64 .bf16) (b : Vec F S1x64 .f32) : Vec F S4096 .f32 :=
  View.canon [⟨rO, k0_pay1 (View.ld x rX) (View.ld w rW) (View.ld s rS) (View.ld b rB)⟩]

/-- The one store's rectangle is the whole block. -/
theorem out_covered (p0 : Vec F S4096 .f32) (y : S4096.Idx) :
    ∃ pc ∈ ([⟨rO, p0⟩] : List (View.Piece (Elt F) S4096 .f32)), y ∈ pc.1.set :=
  View.cover_of_tiled [⟨rO, p0⟩] S4096.size (by rfl) y

/-! ## The body -/

set_option maxHeartbeats 1000000 in
/-- The body on whole staging buffers — the four inputs' at contents `x w s b`, the output's at anything — runs
    to its end leaving the inputs' as they were and the output's at `outBlock x w s b`. -/
theorem body_runs (c : Dev nD) (E : Set ℕ) (i : grid0.Coords)
    (a1 : Memref sig .tc .vmem S4096x32 .f32) (h1 : a1.IsWhole) (a2 : Memref sig .tc .vmem S65x64 .f32) (h2 : a2.IsWhole)
    (a3 : Memref sig .tc .vmem S32x64 .bf16) (h3 : a3.IsWhole) (a4 : Memref sig .tc .vmem S1x64 .f32) (h4 : a4.IsWhole)
    (a5 : Memref sig .tc .vmem S4096 .f32) (h5 : a5.IsWhole)
    (x : Vec F S4096x32 .f32) (w : Vec F S65x64 .f32) (s : Vec F S32x64 .bf16) (b : Vec F S1x64 .f32) (K : PUnit → sProp 𝕄) :
    iprop(owns (c : Thread nD τ) a1 fullShare x ∗ owns (c : Thread nD τ) a2 fullShare w ∗ owns (c : Thread nD τ) a3 fullShare s
        ∗ owns (c : Thread nD τ) a4 fullShare b ∗ (∃ d, owns (c : Thread nD τ) a5 fullShare d)
        ∗ (iprop(owns (c : Thread nD τ) a1 fullShare x ∗ owns (c : Thread nD τ) a2 fullShare w ∗ owns (c : Thread nD τ) a3 fullShare s
            ∗ owns (c : Thread nD τ) a4 fullShare b ∗ owns (c : Thread nD τ) a5 fullShare (outBlock x w s b)) -∗ K ⟨⟩))
      ⊢ wp frame (wpE (defs₀ (F := F)) Variants.none c none) E (cc0__kernel i a1 h1 a2 h2 a3 h3 a4 h4 a5 h5) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (out_covered _)

/-! ## The data of the run -/

/-- On core `c`: the arrays as the region finds them; after the body at point `t` each input's buffer at its
    block and the output's at `outBlock` of the four input blocks; nothing else held, nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => outBlock (blockAt m c 0 t) (blockAt m c 1 t) (blockAt m c 2 t) (blockAt m c 3 t)
  Φ _ := Pipeline.ΦA spec0 c
  q _ := fullShare
  owed _ := 0

theorem arrays_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) :
    (dats m 0 c).after 4 t = outBlock (blockAt m c 0 t) (blockAt m c 1 t) (blockAt m c 2 t) (blockAt m c 3 t) := by dsimp only [dats]

theorem before_0 (c : Dev nD) (t : Fin cfg0.N) (d) : (dats m 0 c).before 0 t d = blockAt m c 0 t :=
  staged0 m (dats m 0 c) (arrays_eq m c 0) (after_0 m c) t d
theorem before_1 (c : Dev nD) (t : Fin cfg0.N) (d) : (dats m 0 c).before 1 t d = blockAt m c 1 t :=
  staged1 m (dats m 0 c) (arrays_eq m c 1) (after_1 m c) t d
theorem before_2 (c : Dev nD) (t : Fin cfg0.N) (d) : (dats m 0 c).before 2 t d = blockAt m c 2 t :=
  staged2 m (dats m 0 c) (arrays_eq m c 2) (after_2 m c) t d
theorem before_3 (c : Dev nD) (t : Fin cfg0.N) (d) : (dats m 0 c).before 3 t d = blockAt m c 3 t :=
  staged3 m (dats m 0 c) (arrays_eq m c 3) (after_3 m c) t d

/-! ## The body at a point of the grid -/

def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the four input buffers hold their blocks, so the body runs as `body_runs` says; what else is
    held passes through untouched. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_runs c Set.univ _ _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem every_point (c : Dev nD) : BodyObligation (dats (F := F) m 0 c) (defs₀ (F := F)) Variants.none () Set.univ := fun t => by
  rw [bigSep_W0, bigSep_W0]
  exact point_runs m c t

/-! ## The run -/

set_option backward.isDefEq.respectTransparency.types false in
/-- Every weakly fair execution of @main ends without a fault, the output array at the write-backs of
    `outBlock` and every other unscoped buffer as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (every_point m c).loose) (hshare := fun c => (dats m 0 c).share_full fun _ => rfl)
    (howed := fun _ _ => rfl) (V := atEntry m) (hmain := main_to_region m Variants.none) (hA := arrays_eq m) (hΦ := fun _ _ => rfl)

/-- The argument arrays end as launched: the input is a staged array no point writes back, the other three no
    window's array; the region found all four as launched. -/
theorem args_kept {r : PUnit × MemSt nD τ sig (Elt F)} (h : Pipeline.FramePost cfgs (dats m) 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((arrays_eq m c 0).trans (atEntry_arg0 m c))),
    ((h c).2 main_arg1 (Pipeline.mem_restRefs_of main_arg1 (by decide) (by decide))).trans (atEntry_arg1 m c),
    ((h c).2 main_arg2 (Pipeline.mem_restRefs_of main_arg2 (by decide) (by decide))).trans (atEntry_arg2 m c),
    ((h c).2 main_arg3 (Pipeline.mem_restRefs_of main_arg3 (by decide) (by decide))).trans (atEntry_arg3 m c)⟩

/-- The frame: @main runs to its end and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => args_kept m h c) (run_main m ρ)

end Cert.KernelIdeal.Run

end
-- ==== Proof.Spec.lean ====
/-
  The mathematics of the certificate, with no program in sight.

  For a row `x` of the input and a centre `r` the reference forms the Gaussian exponent
      E = 0 + Σ_a (x_a − μ_a)·(x_a − μ_a) / ((2·σ_a)·σ_a),
  while the kernel multiplies the augmented row `[x_a·x_a | x_a | 1]` (65 entries) into the table column
  `[c_a | (−2·μ_a)·c_a | 0 + Σ_a (μ_a·μ_a)·c_a]` with `c_a = 1 / ((2·σ_a)·σ_a)`. For finite `x, μ, σ` with every
  `σ_a ≠ 0` all of these are real numbers, and the two agree by the binomial expansion
      (x − μ)²·c = x²·c + x·(−2μ·c) + μ²·c
  summed over `a`. (At `σ_a = 0` the quotient has a pole and the extended reals' conventions for `∞ − ∞`
  separate the two sides: the statement is made on the domain where the reference's quotient is defined.)
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-! ## The float literals the two programs spell -/

theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_neg_two : Ideal.ofBits .f32 0xC0000000#32 = ((-2 : ℝ) : EReal) := by
  simp [Ideal.ofBits, Ideal.ieee, -EReal.coe_mul]; norm_num

/-! ## Sums -/

/-- A finite sum of reals, read in the extended reals, is the sum of the summands read there. -/
theorem coe_sum {ι : Type} (s : Finset ι) (f : ι → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- A sum over the 65 augmented columns is the sum over the first 32, the next 32, and the last one. -/
theorem sum_aug (f : Fin 65 → EReal) :
    ∑ j : Fin 65, f j
      = (∑ a : Fin 32, f ⟨a.val, by have := a.isLt; omega⟩) + (∑ a : Fin 32, f ⟨32 + a.val, by have := a.isLt; omega⟩)
        + f ⟨64, by omega⟩ := by
  have h1 : ∑ j : Fin 65, f j = ∑ i : Fin 64, f i.castSucc + f (Fin.last 64) := Fin.sum_univ_castSucc (n := 64) f
  have h2 : ∑ i : Fin 64, f i.castSucc
      = ∑ a : Fin 32, f (Fin.castSucc (Fin.castAdd 32 a)) + ∑ a : Fin 32, f (Fin.castSucc (Fin.natAdd 32 a)) :=
    Fin.sum_univ_add (a := 32) (b := 32) (fun i : Fin (32 + 32) => f i.castSucc)
  rw [h1, h2]; rfl

/-! ## The expansion -/

/-- The reciprocal the host lines compute from a spread `s`: `1 / ((2·s)·s)`. -/
def recip (s : EReal) : EReal :=
  Ideal.div (Ideal.ofBits .f32 0x3F800000#32) ((Ideal.ofBits .f32 0x40000000#32 * s) * s)

theorem recip_coe {s : ℝ} (hs : s ≠ 0) : recip (s : EReal) = ((1 / (2 * s * s) : ℝ) : EReal) := by
  have hne : (2 * s * s : ℝ) ≠ 0 := mul_ne_zero (mul_ne_zero two_ne_zero hs) hs
  unfold recip
  rw [lit_one, lit_two, ← EReal.coe_mul, ← EReal.coe_mul, Ideal.div_coe hne, ← EReal.coe_mul, one_mul]

/-- The kernel's exponent — the augmented row against the table column, the three stretches of the sum written
    out — is the reference's, for real `x, μ, σ` with no `σ_a` zero. -/
theorem expansion (x mu sg : Fin 32 → ℝ) (hs : ∀ a, sg a ≠ 0) :
    (∑ a : Fin 32, ((x a : EReal) * (x a : EReal)) * recip (sg a))
      + (∑ a : Fin 32, (x a : EReal) * ((Ideal.ofBits .f32 0xC0000000#32 * (mu a : EReal)) * recip (sg a)))
      + Ideal.ofBits .f32 0x3F800000#32
          * (Ideal.ofBits .f32 0x00000000#32 + ∑ a : Fin 32, ((mu a : EReal) * (mu a : EReal)) * recip (sg a))
    = Ideal.ofBits .f32 0x00000000#32
      + ∑ a : Fin 32, Ideal.div (((x a : EReal) - (mu a : EReal)) * ((x a : EReal) - (mu a : EReal)))
          ((Ideal.ofBits .f32 0x40000000#32 * (sg a : EReal)) * (sg a : EReal)) := by
  have hne : ∀ a, (2 * sg a * sg a : ℝ) ≠ 0 := fun a => mul_ne_zero (mul_ne_zero two_ne_zero (hs a)) (hs a)
  have e1 : ∀ a : Fin 32, ((x a : EReal) * (x a : EReal)) * recip (sg a) = ((x a * x a * (1 / (2 * sg a * sg a)) : ℝ) : EReal) := fun a => by
    rw [recip_coe (hs a), ← EReal.coe_mul, ← EReal.coe_mul]
  have e2 : ∀ a : Fin 32, (x a : EReal) * ((Ideal.ofBits .f32 0xC0000000#32 * (mu a : EReal)) * recip (sg a))
      = ((x a * ((-2) * mu a * (1 / (2 * sg a * sg a))) : ℝ) : EReal) := fun a => by
    rw [recip_coe (hs a), lit_neg_two, ← EReal.coe_mul, ← EReal.coe_mul, ← EReal.coe_mul]
  have e3 : ∀ a : Fin 32, ((mu a : EReal) * (mu a : EReal)) * recip (sg a) = ((mu a * mu a * (1 / (2 * sg a * sg a)) : ℝ) : EReal) := fun a => by
    rw [recip_coe (hs a), ← EReal.coe_mul, ← EReal.coe_mul]
  have e4 : ∀ a : Fin 32, Ideal.div (((x a : EReal) - (mu a : EReal)) * ((x a : EReal) - (mu a : EReal)))
      ((Ideal.ofBits .f32 0x40000000#32 * (sg a : EReal)) * (sg a : EReal))
      = (((x a - mu a) * (x a - mu a) * (1 / (2 * sg a * sg a)) : ℝ) : EReal) := fun a => by
    rw [lit_two, ← EReal.coe_mul, ← EReal.coe_mul, Ideal.div_coe (hne a), ← EReal.coe_sub, ← EReal.coe_mul, ← EReal.coe_mul]
  simp only [e1, e2, e3, e4, ← coe_sum, lit_one, Ideal.ofBits_zero_f32]
  rw [← EReal.coe_zero, ← EReal.coe_add, ← EReal.coe_add, ← EReal.coe_mul, ← EReal.coe_add, ← EReal.coe_add]
  congr 1
  rw [zero_add, zero_add, one_mul, ← Finset.sum_add_distrib, ← Finset.sum_add_distrib]
  exact Finset.sum_congr rfl fun a _ => by ring

end Cert.Spec

end
-- ==== Proof.Tables.lean ====
/-
  The three operands the host lines build for the pallas_call, as functions of the argument arrays, and each read at
  an index (at the extended reals).

  * the weight table, 65×64: row `a < 32` is `c[·, a]` with `c = 1 / ((2·σ)·σ)`; row `32 + a` is `((−2)·μ·c)[·, a]`;
    row 64 is `0 + Σ_a (μ·μ·c)[·, a]` — the three stacked along the rows;
  * the slope table, 32×64: the first 32 columns of `ρ`, transposed (its change of float format is the identity
    on the extended reals);
  * the bias row, 1×64: column 32 of `ρ`, laid out as a row.
-/
import proofs.«112125_j89601607729513_2_alg».proof.Proof.KernelIdealRun
import proofs.«112125_j89601607729513_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Tables

open Idealize.ShloMosaic Idealize.ShloMosaic.TcCoe Idealize.SL.Sem Idealize.ShloMosaic.StableHlo
open Idealize.ShloMosaic.ValueIdx
open Cert.KernelIdeal Cert.KernelIdeal.Gen Cert.KernelIdeal.Run

/-! ## A host line of three operands -/

section
variable {tp : Topo} {rs : RefSig} {Val : EltTy → Type}

/-- A host line over a literal family of three references leaves, at its result, its function of the three
    operands' contents, each at its own reference. -/
theorem nary3_result {x a b y : Ref rs .tc}
    (f : ((k : Fin 3) → ((![x, a, b] : Fin 3 → Ref rs .tc) k).ty.Contents Val) → y.ty.Contents Val) (hxs hy)
    (V : Valuation tp rs Val) :
    (nary (τ := tp) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl
end

/-- What one buffer holds after a line of host operations: each operation's result at its own buffer is its
    function of its operands' contents, and at any other buffer what was there. -/
macro "host_results" : tactic =>
  `(tactic| (simp only [after_cons, after_nil]
             repeat (first
               | rw [nullary_result] | rw [unary_result] | rw [binary_result] | rw [reshape_result] | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

variable {F : FTy → Type} [FloatOps F]

/-! ## The three operands as functions of the arguments -/

/-- `c = 1 / ((2·σ)·σ)`, elementwise. -/
def recipTab (sg : (⟨S64x32, .f32⟩ : BufTy).Contents (Elt F)) : (⟨S64x32, .f32⟩ : BufTy).Contents (Elt F) :=
  Host.divf (broadcastInDim S64x32 ![] bcast_S_S64x32 (constant S_ .f32 0x3F800000#32))
    (mulf (mulf (broadcastInDim S64x32 ![] bcast_S_S64x32 (constant S_ .f32 0x40000000#32)) sg) sg)

/-- The weight table. -/
def weightTab (mu sg : (⟨S64x32, .f32⟩ : BufTy).Contents (Elt F)) : (⟨S65x64, .f32⟩ : BufTy).Contents (Elt F) :=
  concatenate S65x64 0
    [⟨S32x64, transpose S32x64 [1, 0] (recipTab sg) transposes_S64x32_S32x64_1_0⟩,
     ⟨S32x64, transpose S32x64 [1, 0]
        (mulf (mulf (broadcastInDim S64x32 ![] bcast_S_S64x32 (constant S_ .f32 0xC0000000#32)) mu) (recipTab sg))
        transposes_S64x32_S32x64_1_0⟩,
     ⟨S1x64, transpose S1x64 [1, 0]
        (broadcastInDim S64x1 ![0] bcast_S64_S64x1_0
          (Host.reduceAdd (mulf (mulf mu mu) (recipTab sg)) (constant S_ .f32 0x00000000#32) reducesTo_S64x32_S64_d1 h_S_))
        transposes_S64x1_S1x64_1_0⟩]
    concatenates_S32x64_S32x64_S1x64_S65x64_d0

/-- The slope table. -/
def slopeTab (rho : (⟨S64x33, .f32⟩ : BufTy).Contents (Elt F)) : (⟨S32x64, .bf16⟩ : BufTy).Contents (Elt F) :=
  truncf .bf16 (transpose S32x64 [1, 0] (extractStridedSlice S64x32 ![0, 0] rho slices_S64x33_S64x32_0_0) transposes_S64x32_S32x64_1_0)
    bitsLt_bf16_f32

/-- The bias row. -/
def biasRow (rho : (⟨S64x33, .f32⟩ : BufTy).Contents (Elt F)) : (⟨S1x64, .f32⟩ : BufTy).Contents (Elt F) :=
  shapeCast _ (shapeCast _ (extractStridedSlice S64x1 ![0, 32] rho slices_S64x33_S64x1_0_32) shapeCasts_S64x1_S64) shapeCasts_S64_S1x64

variable (m : (ℓ : Loc nD τ sig) → Buf (Elt F) ℓ)

set_option maxHeartbeats 4000000 in
/-- The region finds the weight table in the second window's array. -/
theorem entry_weightTab (c : Dev nD) :
    (atEntry m c main_v15 : (⟨S65x64, .f32⟩ : BufTy).Contents (Elt F))
      = weightTab (m ((c : Thread nD τ).loc main_arg1)) (m ((c : Thread nD τ).loc main_arg2)) := by
  dsimp only [atEntry]
  simp only [hostOps0, List.flatten_cons, List.flatten_nil, List.append_nil]
  host_results
  rfl

set_option maxHeartbeats 4000000 in
/-- The region finds the slope table in the third window's array. -/
theorem entry_slopeTab (c : Dev nD) :
    (atEntry m c main_v21 : (⟨S32x64, .bf16⟩ : BufTy).Contents (Elt F)) = slopeTab (m ((c : Thread nD τ).loc main_arg3)) := by
  dsimp only [atEntry]
  simp only [hostOps0, List.flatten_cons, List.flatten_nil, List.append_nil]
  host_results
  rfl

set_option maxHeartbeats 4000000 in
/-- The region finds the bias row in the fourth window's array. -/
theorem entry_biasRow (c : Dev nD) :
    (atEntry m c main_v19 : (⟨S1x64, .f32⟩ : BufTy).Contents (Elt F)) = biasRow (m ((c : Thread nD τ).loc main_arg3)) := by
  dsimp only [atEntry]
  simp only [hostOps0, List.flatten_cons, List.flatten_nil, List.append_nil]
  host_results
  rfl

end Cert.KernelIdeal.Tables

end
-- ==== Proof.Body.lean ====
/-
  The value the body stores, read at one row `p` of its 4096-row block, on the extended reals.

  With `x` the input block (4096×32), `W` the weight table (65×64), `S` the slope table (32×64) and `b` the bias row:
    e(p, r) = Σ_{j<65} aug(p, j)·W(j, r)           the augmented row [x·x | x | 1] against column r
    w(p, r) = exp(0 − e(p, r))
    z(p, r) = Σ_{a<32} x(p, a)·S(a, r) + b(0, r)
    out(p)  = (Σ_r z(p, r)·w(p, r)) / ((Σ_r w(p, r)) + ε)
  The two matrix products into zero accumulators are plain sums, the lane reductions are sums over the 64 centres,
  the change of float format before the second product is the identity.
-/
import proofs.«112125_j89601607729513_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Body

open Idealize.ShloMosaic Idealize.ShloMosaic.TcCoe Idealize.SL.Sem
open Idealize.ShloMosaic.ValueIdx
open Cert.KernelIdeal Cert.KernelIdeal.Gen

/-! ## The lane sum -/

/-- The sum over the 64 centres of a 4096×64 array, at row `p`. -/
theorem laneSum_apply (v : FVec Ideal S4096x64 .f32) (p : Fin 4096) :
    multiReduction .add [1] S4096 v 0x00000000#32 reduces_S4096x64_S4096 (.inl rfl) rfl (ix1 p) = ∑ r : Fin 64, v (ix2 p r) := by
  refine (Ideal.multiReduction_add_single v 0x00000000#32 reduces_S4096x64_S4096 (.inl rfl) rfl (ix1 p)).trans ?_
  refine Finset.sum_congr rfl fun k _ => ?_
  exact congrArg v (funext fun a => Fin.ext (by match a with | ⟨0, _⟩ => rfl | ⟨1, _⟩ => rfl))

/-! ## The augmented row -/

/-- `[x·x | x | 1]`: 32 squares, the 32 entries, and a one. -/
def aug (x : FVec Ideal S4096x32 .f32) : FVec Ideal S4096x65 .f32 :=
  concatenate S4096x65 1
    [⟨S4096x32, mulf x x⟩, ⟨S4096x32, x⟩, ⟨S4096x1, broadcast S4096x1 (Scalar.ofBits (F := Ideal) .f32 0x3F800000#32)⟩]
    concatenates_S4096x32_S4096x32_S4096x1_S4096x65_d1

/-- The three pieces of the augmented row. -/
abbrev augPieces (x : FVec Ideal S4096x32 .f32) : List ((s : Shape) × (s.Idx → Ideal .f32)) :=
  [⟨S4096x32, mulf x x⟩, ⟨S4096x32, x⟩, ⟨S4096x1, broadcast S4096x1 (Scalar.ofBits (F := Ideal) .f32 0x3F800000#32)⟩]

theorem aug_sq (x : FVec Ideal S4096x32 .f32) (p : Fin 4096) (a : Fin 32) :
    aug x (ix2 p (⟨a.val, by have := a.isLt; omega⟩ : Fin 65)) = x (ix2 p a) * x (ix2 p a) := by
  unfold aug
  exact concatenate_apply_piece (t := S4096x65) (1 : Fin 2) (augPieces x) concatenates_S4096x32_S4096x32_S4096x1_S4096x65_d1
    (ix2 p (⟨a.val, by have := a.isLt; omega⟩ : Fin 65)) 0 (by show (0 : ℕ) < 3; omega) S4096x32 (mulf x x) rfl rfl
    0 rfl (ix2 p a) (fun b hb => by match b with | ⟨0, _⟩ => rfl | ⟨1, _⟩ => exact absurd (Fin.ext rfl) hb)
    (by show 0 + a.val = a.val; omega)

theorem aug_lin (x : FVec Ideal S4096x32 .f32) (p : Fin 4096) (a : Fin 32) :
    aug x (ix2 p (⟨32 + a.val, by have := a.isLt; omega⟩ : Fin 65)) = x (ix2 p a) := by
  unfold aug
  exact concatenate_apply_piece (t := S4096x65) (1 : Fin 2) (augPieces x) concatenates_S4096x32_S4096x32_S4096x1_S4096x65_d1
    (ix2 p (⟨32 + a.val, by have := a.isLt; omega⟩ : Fin 65)) 1 (by show (1 : ℕ) < 3; omega) S4096x32 x rfl rfl
    32 rfl (ix2 p a) (fun b hb => by match b with | ⟨0, _⟩ => rfl | ⟨1, _⟩ => exact absurd (Fin.ext rfl) hb)
    (by show 32 + a.val = 32 + a.val; rfl)

theorem aug_one (x : FVec Ideal S4096x32 .f32) (p : Fin 4096) :
    aug x (ix2 p (⟨64, by omega⟩ : Fin 65)) = Ideal.ofBits .f32 0x3F800000#32 := by
  unfold aug
  exact concatenate_apply_piece (t := S4096x65) (1 : Fin 2) (augPieces x) concatenates_S4096x32_S4096x32_S4096x1_S4096x65_d1
    (ix2 p (⟨64, by omega⟩ : Fin 65)) 2 (by show (2 : ℕ) < 3; omega) S4096x1
    (broadcast S4096x1 (Scalar.ofBits (F := Ideal) .f32 0x3F800000#32)) rfl rfl
    64 rfl (ix2 p (0 : Fin 1)) (fun b hb => by match b with | ⟨0, _⟩ => rfl | ⟨1, _⟩ => exact absurd (Fin.ext rfl) hb)
    (by show 64 + 0 = 64; rfl)

/-! ## The two products -/

/-- Each product's output row is its left operand's row, and its output column its right operand's column. -/
theorem expo_lhs0 (i : S4096x64.Idx) (q : dot_S4096x65_S65x64_S4096x64_1_0_0_1_n_n.contr.Idx) :
    (dot_S4096x65_S65x64_S4096x64_1_0_0_1_n_n.lhsIdx i q 0).val = (i 0).val := by
  unfold DotDims.lhsIdx
  rw [dif_neg (show ¬(0 : Fin S4096x65.rank) ∈ dot_S4096x65_S65x64_S4096x64_1_0_0_1_n_n.lhsBatch by decide), dif_pos (show (0 : Fin S4096x65.rank) ∈ dot_S4096x65_S65x64_S4096x64_1_0_0_1_n_n.lhsNonContracting by decide)]
  rfl
theorem expo_rhs1 (i : S4096x64.Idx) (q : dot_S4096x65_S65x64_S4096x64_1_0_0_1_n_n.contr.Idx) :
    (dot_S4096x65_S65x64_S4096x64_1_0_0_1_n_n.rhsIdx i q 1).val = (i 1).val := by
  unfold DotDims.rhsIdx
  rw [dif_neg (show ¬(1 : Fin S65x64.rank) ∈ dot_S4096x65_S65x64_S4096x64_1_0_0_1_n_n.rhsBatch by decide), dif_pos (show (1 : Fin S65x64.rank) ∈ dot_S4096x65_S65x64_S4096x64_1_0_0_1_n_n.rhsNonContracting by decide)]
  rfl
theorem slope_lhs0 (i : S4096x64.Idx) (q : dot_S4096x32_S32x64_S4096x64_1_0_0_1_n_n.contr.Idx) :
    (dot_S4096x32_S32x64_S4096x64_1_0_0_1_n_n.lhsIdx i q 0).val = (i 0).val := by
  unfold DotDims.lhsIdx
  rw [dif_neg (show ¬(0 : Fin S4096x32.rank) ∈ dot_S4096x32_S32x64_S4096x64_1_0_0_1_n_n.lhsBatch by decide), dif_pos (show (0 : Fin S4096x32.rank) ∈ dot_S4096x32_S32x64_S4096x64_1_0_0_1_n_n.lhsNonContracting by decide)]
  rfl
theorem slope_rhs1 (i : S4096x64.Idx) (q : dot_S4096x32_S32x64_S4096x64_1_0_0_1_n_n.contr.Idx) :
    (dot_S4096x32_S32x64_S4096x64_1_0_0_1_n_n.rhsIdx i q 1).val = (i 1).val := by
  unfold DotDims.rhsIdx
  rw [dif_neg (show ¬(1 : Fin S32x64.rank) ∈ dot_S4096x32_S32x64_S4096x64_1_0_0_1_n_n.rhsBatch by decide), dif_pos (show (1 : Fin S32x64.rank) ∈ dot_S4096x32_S32x64_S4096x64_1_0_0_1_n_n.rhsNonContracting by decide)]
  rfl

/-- The exponent's product, 4096×65 by 65×64 into zeros, at `(p, r)`. -/
theorem expoDot_apply (l : FVec Ideal S4096x65 .f32) (w : FVec Ideal S65x64 .f32) (p : Fin 4096) (r : Fin 64) :
    matmul dot_S4096x65_S65x64_S4096x64_1_0_0_1_n_n (some .fp32) l w (constant S4096x64 .f32 0x00000000#32) (ix2 p r)
      = ∑ k : Fin 65, l (ix2 p k) * w (ix2 k r) := by
  refine (Ideal.matmul_constant_zero_apply dot_S4096x65_S65x64_S4096x64_1_0_0_1_n_n (some .fp32) l w (ix2 p r)).trans ?_
  rw [← Equiv.sum_comp (ValueIdx.contrEquiv1 dot_S4096x65_S65x64_S4096x64_1_0_0_1_n_n 65 rfl rfl).symm]
  refine Finset.sum_congr rfl fun k _ => ?_
  have hk := ValueIdx.contrEquiv1_symm_val dot_S4096x65_S65x64_S4096x64_1_0_0_1_n_n 65 rfl rfl k
  have el : dot_S4096x65_S65x64_S4096x64_1_0_0_1_n_n.lhsIdx (ix2 p r) ((ValueIdx.contrEquiv1 dot_S4096x65_S65x64_S4096x64_1_0_0_1_n_n 65 rfl rfl).symm k) = ix2 p k :=
    funext fun a => Fin.ext (by
      match a with
      | ⟨0, _⟩ => exact expo_lhs0 _ _
      | ⟨1, _⟩ => exact (dot_S4096x65_S65x64_S4096x64_1_0_0_1_n_n.lhsIdx_val_of_single rfl (ix2 p r) _).trans hk)
  have er : dot_S4096x65_S65x64_S4096x64_1_0_0_1_n_n.rhsIdx (ix2 p r) ((ValueIdx.contrEquiv1 dot_S4096x65_S65x64_S4096x64_1_0_0_1_n_n 65 rfl rfl).symm k) = ix2 k r :=
    funext fun a => Fin.ext (by
      match a with
      | ⟨0, _⟩ => exact (dot_S4096x65_S65x64_S4096x64_1_0_0_1_n_n.rhsIdx_val_of_single rfl (ix2 p r) _).trans hk
      | ⟨1, _⟩ => exact expo_rhs1 _ _)
  rw [el, er]

/-- The score's product, 4096×32 by 32×64 into zeros, at `(p, r)`. -/
theorem slopeDot_apply (l : FVec Ideal S4096x32 .bf16) (s : FVec Ideal S32x64 .bf16) (p : Fin 4096) (r : Fin 64) :
    matmul dot_S4096x32_S32x64_S4096x64_1_0_0_1_n_n none l s (constant S4096x64 .f32 0x00000000#32) (ix2 p r)
      = ∑ k : Fin 32, l (ix2 p k) * s (ix2 k r) := by
  refine (Ideal.matmul_constant_zero_apply dot_S4096x32_S32x64_S4096x64_1_0_0_1_n_n none l s (ix2 p r)).trans ?_
  rw [← Equiv.sum_comp (ValueIdx.contrEquiv1 dot_S4096x32_S32x64_S4096x64_1_0_0_1_n_n 32 rfl rfl).symm]
  refine Finset.sum_congr rfl fun k _ => ?_
  have hk := ValueIdx.contrEquiv1_symm_val dot_S4096x32_S32x64_S4096x64_1_0_0_1_n_n 32 rfl rfl k
  have el : dot_S4096x32_S32x64_S4096x64_1_0_0_1_n_n.lhsIdx (ix2 p r) ((ValueIdx.contrEquiv1 dot_S4096x32_S32x64_S4096x64_1_0_0_1_n_n 32 rfl rfl).symm k) = ix2 p k :=
    funext fun a => Fin.ext (by
      match a with
      | ⟨0, _⟩ => exact slope_lhs0 _ _
      | ⟨1, _⟩ => exact (dot_S4096x32_S32x64_S4096x64_1_0_0_1_n_n.lhsIdx_val_of_single rfl (ix2 p r) _).trans hk)
  have er : dot_S4096x32_S32x64_S4096x64_1_0_0_1_n_n.rhsIdx (ix2 p r) ((ValueIdx.contrEquiv1 dot_S4096x32_S32x64_S4096x64_1_0_0_1_n_n 32 rfl rfl).symm k) = ix2 k r :=
    funext fun a => Fin.ext (by
      match a with
      | ⟨0, _⟩ => exact (dot_S4096x32_S32x64_S4096x64_1_0_0_1_n_n.rhsIdx_val_of_single rfl (ix2 p r) _).trans hk
      | ⟨1, _⟩ => exact slope_rhs1 _ _)
  rw [el, er]

/-! ## The stored value at a row -/

/-- The exponent at `(p, r)`. -/
def expo (x : FVec Ideal S4096x32 .f32) (w : FVec Ideal S65x64 .f32) (p : Fin 4096) (r : Fin 64) : EReal :=
  ∑ j : Fin 65, aug x (ix2 p j) * w (ix2 j r)

/-- The stored value at row `p`, as a function of the four blocks. -/
def rowValue (x : FVec Ideal S4096x32 .f32) (w : FVec Ideal S65x64 .f32) (s : FVec Ideal S32x64 .bf16) (b : FVec Ideal S1x64 .f32)
    (p : Fin 4096) : EReal :=
  Ideal.div
    (∑ r : Fin 64, ((∑ a : Fin 32, x (ix2 p a) * s (ix2 a r)) + b (ix2 (0 : Fin 1) r))
        * Ideal.exp (Ideal.ofBits .f32 0x00000000#32 - expo x w p r))
    ((∑ r : Fin 64, Ideal.exp (Ideal.ofBits .f32 0x00000000#32 - expo x w p r)) + Ideal.ofBits .f32 0x29E12E13#32)

theorem stored_apply (x : FVec Ideal S4096x32 .f32) (w : FVec Ideal S65x64 .f32) (s : FVec Ideal S32x64 .bf16) (b : FVec Ideal S1x64 .f32)
    (p : Fin 4096) : k0_pay1 (F := Ideal) x w s b (ix1 p) = rowValue x w s b p := by
  unfold k0_pay1 rowValue
  dsimp only
  simp only [shapeCast_self]
  show Ideal.div (multiReduction (F := Ideal) .add [1] S4096 _ 0x00000000#32 reduces_S4096x64_S4096 (.inl rfl) rfl (ix1 p))
      (multiReduction (F := Ideal) .add [1] S4096 _ 0x00000000#32 reduces_S4096x64_S4096 (.inl rfl) rfl (ix1 p) + _) = _
  rw [laneSum_apply, laneSum_apply]
  have hw : ∀ r : Fin 64,
      exp (F := Ideal) (subf (broadcast S4096x64 (Scalar.ofBits (F := Ideal) .f32 0x00000000#32))
        (matmul (F := Ideal) dot_S4096x65_S65x64_S4096x64_1_0_0_1_n_n (some .fp32) (aug x) w (constant S4096x64 .f32 0x00000000#32))) (ix2 p r)
        = Ideal.exp (Ideal.ofBits .f32 0x00000000#32 - expo x w p r) := fun r => by
    show Ideal.exp (Ideal.ofBits .f32 0x00000000#32 - matmul (F := Ideal) _ _ _ _ _ (ix2 p r)) = _
    rw [expoDot_apply]; rfl
  refine congr (congrArg Ideal.div (Finset.sum_congr rfl fun r _ => ?_)) (congrArg (· + _) (Finset.sum_congr rfl fun r _ => ?_))
  · show (matmul (F := Ideal) _ _ _ _ _ (ix2 p r) + broadcastTo S4096x64 b broadcasts_S1x64_S4096x64 (ix2 p r)) * _ = _
    rw [slopeDot_apply, broadcastTo_1b_ab_apply]
    exact congrArg (_ * ·) (hw r)
  · exact hw r

end Cert.KernelIdeal.Body

end
-- ==== Proof.TablesRead.lean ====
/-
  The three host-built operands read at an index, on the extended reals:
    weight table at (a, r), a < 32      : c(r, a) = 1 / ((2·σ(r,a))·σ(r,a))
    weight table at (32 + a, r)          : ((−2)·μ(r,a))·c(r,a)
    weight table at (64, r)              : 0 + Σ_a (μ(r,a)·μ(r,a))·c(r,a)
    slope table at (a, r)                : ρ(r, a)
    bias row at (0, r)                   : ρ(r, 32)
-/
import proofs.«112125_j89601607729513_2_alg».proof.Proof.Tables

set_option maxRecDepth 16384

noncomputable section

open scoped BigOperators

namespace Cert.KernelIdeal.Tables

open Idealize.ShloMosaic Idealize.ShloMosaic.TcCoe Idealize.SL.Sem
open Idealize.ShloMosaic.ValueIdx
open Cert.KernelIdeal Cert.KernelIdeal.Gen

/-- A scalar literal spread over a 64×32 array reads as the literal everywhere. -/
theorem splat_apply (b : BitVec 32) (i : S64x32.Idx) :
    broadcastInDim S64x32 ![] bcast_S_S64x32 (constant (F := Ideal) S_ .f32 b) i = Ideal.ofBits .f32 b :=
  broadcastInDim_apply _ bcast_S_S64x32 (constant (F := Ideal) S_ .f32 b) i (fun a => a.elim0) (fun a => a.elim0)

/-- `c` at `(r, a)`. -/
theorem recipTab_apply (sg : FVec Ideal S64x32 .f32) (i : S64x32.Idx) :
    recipTab (F := Ideal) sg i = Cert.Spec.recip (sg i) := by
  unfold recipTab Cert.Spec.recip
  show Ideal.div (broadcastInDim S64x32 ![] bcast_S_S64x32 (constant (F := Ideal) S_ .f32 0x3F800000#32) i)
      ((broadcastInDim S64x32 ![] bcast_S_S64x32 (constant (F := Ideal) S_ .f32 0x40000000#32) i * sg i) * sg i) = _
  rw [splat_apply, splat_apply]

/-- The middle stretch's array `((−2)·μ)·c` at `(r, a)`. -/
theorem crossTab_apply (mu sg : FVec Ideal S64x32 .f32) (i : S64x32.Idx) :
    mulf (mulf (broadcastInDim S64x32 ![] bcast_S_S64x32 (constant (F := Ideal) S_ .f32 0xC0000000#32)) mu) (recipTab (F := Ideal) sg : FVec Ideal S64x32 .f32) i
      = (Ideal.ofBits .f32 0xC0000000#32 * mu i) * Cert.Spec.recip (sg i) := by
  show (broadcastInDim S64x32 ![] bcast_S_S64x32 (constant (F := Ideal) S_ .f32 0xC0000000#32) i * mu i) * recipTab (F := Ideal) sg i = _
  rw [splat_apply, recipTab_apply]

/-- The last row's sums `0 + Σ_a (μ·μ)·c` at `r`. -/
theorem constTab_apply (mu sg : FVec Ideal S64x32 .f32) (r : Fin 64) :
    Host.reduceAdd (F := Ideal) (mulf (mulf mu mu) (recipTab (F := Ideal) sg : FVec Ideal S64x32 .f32)) (constant (F := Ideal) S_ .f32 0x00000000#32) reducesTo_S64x32_S64_d1 h_S_ (ix1 r)
      = Ideal.ofBits .f32 0x00000000#32 + ∑ a : Fin 32, (mu (ix2 r a) * mu (ix2 r a)) * Cert.Spec.recip (sg (ix2 r a)) := by
  generalize hy : mulf (mulf mu mu) (recipTab (F := Ideal) sg : FVec Ideal S64x32 .f32) = y0
  simp only [Host.reduceAdd, Ideal.hostReduceAdd_def]
  rw [Ideal.hostReduceAdd_single reducesTo_S64x32_S64_d1 (by decide)]
  refine congrArg (_ + ·) (Finset.sum_congr rfl fun k _ => ?_)
  subst hy
  show (mu _ * mu _) * recipTab (F := Ideal) sg _ = _
  rw [recipTab_apply]
  have e : ∀ (f : S64x32.Idx → EReal), f ((by decide : S64x32.Reduces [1] S64).lift (ix1 r) k) = f (ix2 r k) := fun f =>
    congrArg f (funext fun a => Fin.ext (by match a with | ⟨0, _⟩ => rfl | ⟨1, _⟩ => rfl))
  rw [e mu, e sg]

/-! ## The weight table's three stretches -/

/-- The three pieces stacked along the rows. -/
abbrev weightPieces (mu sg : FVec Ideal S64x32 .f32) : List ((s : Shape) × (s.Idx → Ideal .f32)) :=
  [⟨S32x64, transpose S32x64 [1, 0] (recipTab (F := Ideal) sg : FVec Ideal S64x32 .f32) transposes_S64x32_S32x64_1_0⟩,
   ⟨S32x64, transpose S32x64 [1, 0]
      (mulf (mulf (broadcastInDim S64x32 ![] bcast_S_S64x32 (constant (F := Ideal) S_ .f32 0xC0000000#32)) mu) (recipTab (F := Ideal) sg : FVec Ideal S64x32 .f32))
      transposes_S64x32_S32x64_1_0⟩,
   ⟨S1x64, transpose S1x64 [1, 0]
      (broadcastInDim S64x1 ![0] bcast_S64_S64x1_0
        (Host.reduceAdd (F := Ideal) (mulf (mulf mu mu) (recipTab (F := Ideal) sg : FVec Ideal S64x32 .f32)) (constant (F := Ideal) S_ .f32 0x00000000#32) reducesTo_S64x32_S64_d1 h_S_))
      transposes_S64x1_S1x64_1_0⟩]

theorem weightTab_sq (mu sg : FVec Ideal S64x32 .f32) (a : Fin 32) (r : Fin 64) :
    weightTab (F := Ideal) mu sg (ix2 (⟨a.val, by have := a.isLt; omega⟩ : Fin 65) r) = Cert.Spec.recip (sg (ix2 r a)) := by
  unfold weightTab
  refine (concatenate_apply_piece (t := S65x64) (0 : Fin 2) (weightPieces mu sg) concatenates_S32x64_S32x64_S1x64_S65x64_d0
    (ix2 (⟨a.val, by have := a.isLt; omega⟩ : Fin 65) r) 0 (by show (0 : ℕ) < 3; omega) S32x64 _ rfl rfl
    0 rfl (ix2 a r) (fun b hb => by match b with | ⟨0, _⟩ => exact absurd (Fin.ext rfl) hb | ⟨1, _⟩ => rfl)
    (by show 0 + a.val = a.val; omega)).trans ?_
  rw [transpose_ix2_apply, recipTab_apply]

theorem weightTab_lin (mu sg : FVec Ideal S64x32 .f32) (a : Fin 32) (r : Fin 64) :
    weightTab (F := Ideal) mu sg (ix2 (⟨32 + a.val, by have := a.isLt; omega⟩ : Fin 65) r)
      = (Ideal.ofBits .f32 0xC0000000#32 * mu (ix2 r a)) * Cert.Spec.recip (sg (ix2 r a)) := by
  unfold weightTab
  refine (concatenate_apply_piece (t := S65x64) (0 : Fin 2) (weightPieces mu sg) concatenates_S32x64_S32x64_S1x64_S65x64_d0
    (ix2 (⟨32 + a.val, by have := a.isLt; omega⟩ : Fin 65) r) 1 (by show (1 : ℕ) < 3; omega) S32x64 _ rfl rfl
    32 rfl (ix2 a r) (fun b hb => by match b with | ⟨0, _⟩ => exact absurd (Fin.ext rfl) hb | ⟨1, _⟩ => rfl)
    (by show 32 + a.val = 32 + a.val; rfl)).trans ?_
  rw [transpose_ix2_apply, crossTab_apply]

theorem weightTab_const (mu sg : FVec Ideal S64x32 .f32) (r : Fin 64) :
    weightTab (F := Ideal) mu sg (ix2 (⟨64, by omega⟩ : Fin 65) r)
      = Ideal.ofBits .f32 0x00000000#32 + ∑ a : Fin 32, (mu (ix2 r a) * mu (ix2 r a)) * Cert.Spec.recip (sg (ix2 r a)) := by
  unfold weightTab
  refine (concatenate_apply_piece (t := S65x64) (0 : Fin 2) (weightPieces mu sg) concatenates_S32x64_S32x64_S1x64_S65x64_d0
    (ix2 (⟨64, by omega⟩ : Fin 65) r) 2 (by show (2 : ℕ) < 3; omega) S1x64 _ rfl rfl
    64 rfl (ix2 (0 : Fin 1) r) (fun b hb => by match b with | ⟨0, _⟩ => exact absurd (Fin.ext rfl) hb | ⟨1, _⟩ => rfl)
    (by show 64 + 0 = 64; rfl)).trans ?_
  rw [transpose_ix2_apply]
  refine (broadcastInDim_apply ![0] bcast_S64_S64x1_0 _ (ix2 r (0 : Fin 1)) (ix1 r) (fun ax => by
    match ax with
    | ⟨0, _⟩ => show r.val = if (64 : Nat) = 1 then 0 else r.val; rw [if_neg (by decide)])).trans ?_
  exact constTab_apply mu sg r

/-! ## The slope table and the bias row -/

theorem slopeTab_apply (rho : FVec Ideal S64x33 .f32) (a : Fin 32) (r : Fin 64) :
    slopeTab (F := Ideal) rho (ix2 a r) = rho (ix2 r (⟨a.val, by have := a.isLt; omega⟩ : Fin 33)) := by
  unfold slopeTab
  show transpose S32x64 [1, 0] (extractStridedSlice S64x32 ![0, 0] rho slices_S64x33_S64x32_0_0) transposes_S64x32_S32x64_1_0 (ix2 a r) = _
  rw [transpose_ix2_apply]
  exact extractStridedSlice_apply ![0, 0] rho slices_S64x33_S64x32_0_0 (ix2 r a) (ix2 r (⟨a.val, by have := a.isLt; omega⟩ : Fin 33)) (fun ax => by
    match ax with
    | ⟨0, _⟩ => show r.val = 0 + r.val; omega
    | ⟨1, _⟩ => show a.val = 0 + a.val; omega)

theorem biasRow_apply (rho : FVec Ideal S64x33 .f32) (r : Fin 64) :
    biasRow (F := Ideal) rho (ix2 (0 : Fin 1) r) = rho (ix2 r (⟨32, by omega⟩ : Fin 33)) := by
  unfold biasRow
  refine (shapeCast_apply _ shapeCasts_S64_S1x64 (ix2 (0 : Fin 1) r) (ix1 r)
    (by rewrite [Shape.rowMajor_val_one, Shape.rowMajor_val_two]; show r.val = 0 * 64 + r.val; omega)).trans ?_
  refine (shapeCast_apply _ shapeCasts_S64x1_S64 (ix1 r) (ix2 r (0 : Fin 1))
    (by rewrite [Shape.rowMajor_val_two, Shape.rowMajor_val_one]; show r.val * 1 + 0 = r.val; omega)).trans ?_
  exact extractStridedSlice_apply ![0, 32] rho slices_S64x33_S64x1_0_32 (ix2 r (0 : Fin 1)) (ix2 r (⟨32, by omega⟩ : Fin 33)) (fun ax => by
    match ax with
    | ⟨0, _⟩ => show r.val = 0 + r.val; omega
    | ⟨1, _⟩ => show 32 = 32 + 0; rfl)

end Cert.KernelIdeal.Tables

end
-- ==== Proof.Target.lean ====
/-
  The function both programs compute, one output entry per input row `n`:

      score(n, r)  = Σ_a x(n,a)·ρ(r,a) + ρ(r,32)
      expo(n, r)   = 0 + Σ_a (x(n,a) − μ(r,a))·(x(n,a) − μ(r,a)) / ((2·σ(r,a))·σ(r,a))
      weight(n, r) = exp(−expo(n, r))
      G(n)         = (0 + Σ_r score(n,r)·weight(n,r)) / ((0 + Σ_r weight(n,r)) + ε)

  written in the reference's arrangement (its explicit zero initial values kept, so that the reference's chain
  of stages is this function on the nose).
-/
import proofs.«112125_j89601607729513_2_alg».proof.Proof.Spec

noncomputable section

open scoped BigOperators

namespace Cert.Spec

open Idealize.ShloMosaic Idealize.ShloMosaic.ValueIdx

abbrev ArrX := (⟨2, ![131072, 32]⟩ : Shape).Idx → EReal
abbrev ArrM := (⟨2, ![64, 32]⟩ : Shape).Idx → EReal
abbrev ArrR := (⟨2, ![64, 33]⟩ : Shape).Idx → EReal

/-- Column `a < 32` of `ρ` and its last column. -/
abbrev col (a : Fin 32) : Fin 33 := ⟨a.val, by have := a.isLt; omega⟩
abbrev lastCol : Fin 33 := ⟨32, by omega⟩

def score (x : ArrX) (rho : ArrR) (n : Fin 131072) (r : Fin 64) : EReal :=
  (∑ a : Fin 32, x (ix2 n a) * rho (ix2 r (col a))) + rho (ix2 r lastCol)

def refExpo (x : ArrX) (mu sg : ArrM) (n : Fin 131072) (r : Fin 64) : EReal :=
  Ideal.ofBits .f32 0x00000000#32
    + ∑ a : Fin 32, Ideal.div ((x (ix2 n a) - mu (ix2 r a)) * (x (ix2 n a) - mu (ix2 r a)))
        ((Ideal.ofBits .f32 0x40000000#32 * sg (ix2 r a)) * sg (ix2 r a))

def weight (x : ArrX) (mu sg : ArrM) (n : Fin 131072) (r : Fin 64) : EReal :=
  Ideal.exp (-(refExpo x mu sg n r))

def G (x : ArrX) (mu sg : ArrM) (rho : ArrR) (n : Fin 131072) : EReal :=
  Ideal.div (Ideal.ofBits .f32 0x00000000#32 + ∑ r : Fin 64, score x rho n r * weight x mu sg n r)
    ((Ideal.ofBits .f32 0x00000000#32 + ∑ r : Fin 64, weight x mu sg n r) + Ideal.ofBits .f32 0x29E12E13#32)

end Cert.Spec

end
-- ==== Proof.Bridge.lean ====
/-
  One row of the body's stored value, with the host-built tables for its weight, slope and bias operands, is the
  target function `G` at the input row the block's row `p` comes from — for real `x, μ, σ` with no `σ` zero.

  The scores agree term by term (the slope table is `ρ`'s first 32 columns transposed, the bias row its last
  column). The exponents agree by the expansion of Spec.lean: the 65-term product of the augmented row with the
  table column splits into its three stretches, which are the three sums of the expansion. After that the two
  sides are the same function of scores and exponents (the explicit zero initial values are `0 + ·` and `0 − ·`).
-/
import proofs.«112125_j89601607729513_2_alg».proof.Proof.Body
import proofs.«112125_j89601607729513_2_alg».proof.Proof.TablesRead
import proofs.«112125_j89601607729513_2_alg».proof.Proof.Target

set_option maxRecDepth 16384

noncomputable section

open scoped BigOperators

namespace Cert.KernelIdeal.Bridge

open Idealize.ShloMosaic Idealize.ShloMosaic.ValueIdx
open Cert.KernelIdeal Cert.KernelIdeal.Gen Cert.KernelIdeal.Body Cert.KernelIdeal.Tables Cert.Spec

variable (xb : FVec Ideal S4096x32 .f32) (x : ArrX) (mu sg : FVec Ideal S64x32 .f32) (rho : FVec Ideal S64x33 .f32)
  (p : Fin 4096) (n : Fin 131072)

/-- The scores agree. -/
theorem score_eq (hx : ∀ a : Fin 32, xb (ix2 p a) = x (ix2 n a)) (r : Fin 64) :
    (∑ a : Fin 32, xb (ix2 p a) * slopeTab (F := Ideal) rho (ix2 a r)) + biasRow (F := Ideal) rho (ix2 (0 : Fin 1) r)
      = score x rho n r := by
  unfold score
  rw [biasRow_apply]
  refine congrArg (· + _) (Finset.sum_congr rfl fun a _ => ?_)
  rw [hx, slopeTab_apply]

/-- The exponents agree, on the domain. -/
theorem expo_eq (hx : ∀ a : Fin 32, xb (ix2 p a) = x (ix2 n a))
    (fx : ∀ i, ∃ v : ℝ, x i = (v : EReal)) (fm : ∀ i, ∃ v : ℝ, mu i = (v : EReal)) (fs : ∀ i, ∃ v : ℝ, sg i = (v : EReal))
    (hs : ∀ i, sg i ≠ 0) (r : Fin 64) :
    expo xb (weightTab (F := Ideal) mu sg) p r = refExpo x mu sg n r := by
  unfold expo refExpo
  rw [sum_aug]
  simp only [aug_sq, aug_lin, aug_one, weightTab_sq, weightTab_lin, weightTab_const, hx]
  choose xr hxr using fun a : Fin 32 => fx (ix2 n a)
  choose mr hmr using fun a : Fin 32 => fm (ix2 r a)
  choose sr hsr using fun a : Fin 32 => fs (ix2 r a)
  have hsr0 : ∀ a, sr a ≠ 0 := fun a h0 => hs (ix2 r a) (by rw [hsr a, h0]; rfl)
  simp only [hxr, hmr, hsr]
  exact expansion xr mr sr hsr0

/-- One row of the stored value is `G` at the row it comes from. -/
theorem row_eq (hx : ∀ a : Fin 32, xb (ix2 p a) = x (ix2 n a))
    (fx : ∀ i, ∃ v : ℝ, x i = (v : EReal)) (fm : ∀ i, ∃ v : ℝ, mu i = (v : EReal)) (fs : ∀ i, ∃ v : ℝ, sg i = (v : EReal))
    (hs : ∀ i, sg i ≠ 0) :
    rowValue xb (weightTab (F := Ideal) mu sg) (slopeTab (F := Ideal) rho) (biasRow (F := Ideal) rho) p = G x mu sg rho n := by
  unfold rowValue G weight
  simp only [score_eq xb x rho p n hx, expo_eq xb x mu sg p n hx fx fm fs hs, Ideal.ofBits_zero_f32, zero_sub, zero_add]

end Cert.KernelIdeal.Bridge

end
-- ==== Proof.KernelValue.lean ====
/-
  The kernel's output array after the run, as one function of the argument arrays.

  Point `t` of the grid (there are 32) stages rows `4096·t … 4096·t + 4095` of the input, the three host-built
  tables whole, and writes back rows `4096·t … 4096·t + 4095` of the output. Row `p` of what it writes back is the
  body's stored value at `p`, which by Bridge.lean is `G` at input row `4096·t + p`: so what point `t` writes back is
  block `t` of the whole-array function `n ↦ G n`. The 32 output blocks tile the 131072 rows (row `n` lies in the
  block of point `n / 4096`), so the output array ends holding that function.
-/
import proofs.«112125_j89601607729513_2_alg».proof.Proof.KernelIdealRun
import proofs.«112125_j89601607729513_2_alg».proof.Proof.Tables
import proofs.«112125_j89601607729513_2_alg».proof.Proof.Bridge
import Idealize.ShloMosaic.Lib.Pipeline.Value

set_option maxRecDepth 16384

noncomputable section

open scoped BigOperators

namespace Cert.KernelIdeal.ArrayValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Run Cert.KernelIdeal.Body Cert.KernelIdeal.Tables Cert.Spec

variable (m : (ℓ : Loc nD τ sig) → Buf (Elt Ideal) ℓ) (ρ : Dev nD → PrngReg)

/-! ## Where each window's block sits -/

/-- The index maps, decided over the 32 points: the input and the output move with the point along the rows; the three
    tables stay at the origin. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = t.val :=
  (by decide +kernel : ∀ t : Fin grid0.N, _)

theorem points : cfg0.N = 32 := N_0

/-- The input row that row `p` of point `t`'s block is. -/
def rowOf (t : Fin cfg0.N) (p : Fin 4096) : Fin 131072 :=
  ⟨t.val * 4096 + p.val, by have h1 := t.isLt; have hN := points; have h2 := p.isLt; omega⟩

/-- The input window's block at `t` is rows `4096·t …` of the input as launched. -/
theorem input_block (c : Dev nD) (t : Fin cfg0.N) (p : Fin 4096) (a : Fin 32) :
    blockAt m c 0 t (ix2 p a) = m ((c : Thread nD τ).loc main_arg0) (ix2 (rowOf t p) a) := by
  obtain ⟨e0, e1, -⟩ := block_indices t
  rw [← atEntry_arg0 m c]
  show atEntry m c main_arg0 (((cfg0.win 0).blk t).view.emb (ix2 p a)) = atEntry m c main_arg0 (ix2 (rowOf t p) a)
  refine congrArg (atEntry m c main_arg0) (funext fun d => Fin.ext ?_)
  match d with
  | ⟨0, _⟩ => show win0_0.index t (0 : Fin 2) * 4096 + 1 * p.val = t.val * 4096 + p.val; rw [e0]; omega
  | ⟨1, _⟩ => show win0_0.index t (1 : Fin 2) * 32 + 1 * a.val = a.val; rw [e1]; omega

/-- The three tables' blocks are the tables whole. -/
theorem weight_block (c : Dev nD) (t : Fin cfg0.N) :
    blockAt m c 1 t = weightTab (F := Ideal) (m ((c : Thread nD τ).loc main_arg1)) (m ((c : Thread nD τ).loc main_arg2)) := by
  obtain ⟨-, -, e0, e1, -⟩ := block_indices t
  rw [← entry_weightTab m c]
  funext y
  show atEntry m c main_v15 (((cfg0.win 1).blk t).view.emb y) = atEntry m c main_v15 y
  refine congrArg (atEntry m c main_v15) (funext fun d => Fin.ext ?_)
  match d with
  | ⟨0, _⟩ => show win0_1.index t (0 : Fin 2) * 65 + 1 * (y 0).val = (y 0).val; rw [e0]; omega
  | ⟨1, _⟩ => show win0_1.index t (1 : Fin 2) * 64 + 1 * (y 1).val = (y 1).val; rw [e1]; omega

theorem slope_block (c : Dev nD) (t : Fin cfg0.N) :
    blockAt m c 2 t = slopeTab (F := Ideal) (m ((c : Thread nD τ).loc main_arg3)) := by
  obtain ⟨-, -, -, -, e0, e1, -⟩ := block_indices t
  rw [← entry_slopeTab m c]
  funext y
  show atEntry m c main_v21 (((cfg0.win 2).blk t).view.emb y) = atEntry m c main_v21 y
  refine congrArg (atEntry m c main_v21) (funext fun d => Fin.ext ?_)
  match d with
  | ⟨0, _⟩ => show win0_2.index t (0 : Fin 2) * 32 + 1 * (y 0).val = (y 0).val; rw [e0]; omega
  | ⟨1, _⟩ => show win0_2.index t (1 : Fin 2) * 64 + 1 * (y 1).val = (y 1).val; rw [e1]; omega

theorem bias_block (c : Dev nD) (t : Fin cfg0.N) :
    blockAt m c 3 t = biasRow (F := Ideal) (m ((c : Thread nD τ).loc main_arg3)) := by
  obtain ⟨-, -, -, -, -, -, e0, e1, -⟩ := block_indices t
  rw [← entry_biasRow m c]
  funext y
  show atEntry m c main_v19 (((cfg0.win 3).blk t).view.emb y) = atEntry m c main_v19 y
  refine congrArg (atEntry m c main_v19) (funext fun d => Fin.ext ?_)
  match d with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-! ## What the output array ends holding -/

/-- The four argument arrays as launched on core `c`. -/
abbrev argX (c : Dev nD) : ArrX := m ((c : Thread nD τ).loc main_arg0)
abbrev argMu (c : Dev nD) : ArrM := m ((c : Thread nD τ).loc main_arg1)
abbrev argSg (c : Dev nD) : ArrM := m ((c : Thread nD τ).loc main_arg2)
abbrev argRho (c : Dev nD) : ArrR := m ((c : Thread nD τ).loc main_arg3)

/-- The output array as one function of the arguments: `G` at every row. -/
def outArray (c : Dev nD) : S131072.Idx → EReal := fun i =>
  G (argX m c) (argMu m c) (argSg m c) (argRho m c) (i 0)

/-- The domain the statement is made on: the three arrays the exponent reads are real and no spread is zero. -/
def OnDomain (c : Dev nD) : Prop :=
  (∀ i, ∃ v : ℝ, argX m c i = (v : EReal))
  ∧ (∀ i, ∃ v : ℝ, argMu m c i = (v : EReal))
  ∧ (∀ i, ∃ v : ℝ, argSg m c i = (v : EReal))
  ∧ (∀ i, argSg m c i ≠ 0)

theorem zeros1 : (![0] : Fin 1 → Nat) = fun _ => 0 := funext fun a => by fin_cases a; rfl
theorem zeros2 : (![0, 0] : Fin 2 → Nat) = fun _ => 0 := funext fun a => by fin_cases a <;> rfl

/-- What point `t` writes back is block `t` of `outArray`. -/
theorem written_back (c : Dev nD) (hd : OnDomain m c) (t : Fin cfg0.N) :
    (dats m 0 c).flushed 4 t = ((cfg0.win 4).blk t).view.read (Elt Ideal) (outArray m c) := by
  obtain ⟨fx, fm, fs, hs⟩ := hd
  obtain ⟨-, -, -, -, -, -, -, -, e4⟩ := block_indices t
  show (cfg0.win 4).cut (grid0.coords t) ((dats m 0 c).after 4 t) = _
  rw [after_4]
  unfold outBlock
  rw [View.canon_unit_zero zeros1]
  simp only [View.ld_unit_zero (S := S4096x32) zeros2, View.ld_unit_zero (S := S65x64) zeros2,
    View.ld_unit_zero (S := S32x64) zeros2, View.ld_unit_zero (S := S1x64) zeros2]
  rw [weight_block, slope_block, bias_block]
  funext j
  obtain ⟨p, rfl⟩ : ∃ p : Fin 4096, j = ix1 p := ⟨j 0, eq_ix1 j⟩
  show k0_pay1 (F := Ideal) (blockAt m c 0 t) _ _ _ (ix1 p) = outArray m c (((cfg0.win 4).blk t).view.emb (ix1 p))
  refine (stored_apply _ _ _ _ p).trans ?_
  refine (Cert.KernelIdeal.Bridge.row_eq _ (argX m c) (argMu m c) (argSg m c) (argRho m c) p (rowOf t p)
    (fun a => input_block m c t p a) fx fm fs hs).trans ?_
  unfold outArray
  refine congrArg (G _ _ _ _) (Fin.ext ?_)
  show t.val * 4096 + p.val = win0_4.index t (0 : Fin 1) * 4096 + 1 * p.val
  rw [e4]; omega

/-- A row of the output lies in point `t`'s block iff it is one of rows `4096·t … 4096·t + 4095`. -/
theorem in_block (t : Fin cfg0.N) (i : S131072.Idx) :
    i ∈ ((cfg0.win 4).blk t).view.set
      ↔ ∀ a : Fin 1, win0_4.index t a * S4096.size a ≤ (i a).val ∧ (i a).val < win0_4.index t a * S4096.size a + S4096.size a := by
  show i ∈ ((View.whole main_v22).slice (win0_4.rect t)).set ↔ _
  rw [View.set_slice_whole, Rect.mem_set_unit]
  exact Iff.rfl

/-- Every row is in the block of the point `row / 4096`. -/
theorem covered (i : S131072.Idx) : ∃ t : Fin cfg0.N, (cfg0.win 4).flush t = true ∧ i ∈ ((cfg0.win 4).blk t).view.set := by
  have hi : (i 0).val < 131072 := (i 0).isLt
  let t : Fin cfg0.N := ⟨(i 0).val / 4096, by rw [points]; omega⟩
  obtain ⟨-, -, -, -, -, -, -, -, e4⟩ := block_indices t
  have ht : t.val = (i 0).val / 4096 := rfl
  refine ⟨t, flush0_4 t, ?_⟩
  rw [in_block]
  intro a
  match a with
  | ⟨0, _⟩ =>
    show win0_4.index t (0 : Fin 1) * 4096 ≤ (i 0).val ∧ (i 0).val < win0_4.index t (0 : Fin 1) * 4096 + 4096
    rw [e4, ht]; omega

/-- The output array after all the write-backs is `outArray`. -/
theorem final (c : Dev nD) (hd : OnDomain m c) : (dats m 0 c).arrAt 4 cfg0.N = outArray m c :=
  (dats m 0 c).arrAt_eq_of_cover 4 (outArray m c) (fun t _ => written_back m c hd t) covered

/-- The run, with the result named: on the domain, every execution ends with the output array at `outArray` and the four
    arguments as launched. -/
theorem run (hd : ∀ c, OnDomain m c) :
    θ_run defs (onTc (τ := τ) (main (F := Ideal))) ⟨m, fun _ => 0, ρ⟩ fun r => ∀ c : Dev nD,
      r.2.mem ((c.tc : Thread nD τ).loc main_v22) = outArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final m c (hd c)), args_kept m h c⟩) (run_main m ρ)

end Cert.KernelIdeal.ArrayValue

end
-- ==== Proof.RefValue.lean ====
/-
  The reference's result, stage by stage, is the target function `G` of its four arguments: every stage read at an
  index is an arithmetic operation on the stages before it at indices that are coordinates of the output row `n`,
  the centre `r` and the feature `a`; composing them gives `G` literally.
-/
import proofs.«112125_j89601607729513_2_alg».proof.Defs
import proofs.«112125_j89601607729513_2_alg».proof.Proof.Gen.ReferenceIdeal.Run
import proofs.«112125_j89601607729513_2_alg».proof.Proof.Gen.ReferenceIdeal.Read
import proofs.«112125_j89601607729513_2_alg».proof.Proof.Target

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.Spec

variable (x0 : ArrX) (x1 x2 : ArrM) (x3 : ArrR)

/-! ## Where each stage reads its operands -/

theorem at_row_centre (n : Fin 131072) (k : Fin 64) : idx_main_v23 (ix1 n) k = ix2 n k :=
  funext fun a => Fin.ext (by match a with | ⟨0, _⟩ => rfl | ⟨1, _⟩ => rfl)
theorem at_row_centre' (n : Fin 131072) (k : Fin 64) : idx_main_v24 (ix1 n) k = ix2 n k :=
  funext fun a => Fin.ext (by match a with | ⟨0, _⟩ => rfl | ⟨1, _⟩ => rfl)
theorem dot_left (n : Fin 131072) (k : Fin 64) (a : Fin 32) : lidx_main_v1 (ix2 n k) a = ix2 n a :=
  funext fun d => Fin.ext (by match d with | ⟨0, _⟩ => rfl | ⟨1, _⟩ => rfl)
theorem dot_right (n : Fin 131072) (k : Fin 64) (a : Fin 32) : idx_main_v0 (ridx_main_v1 (ix2 n k) a) = ix2 k (col a) :=
  funext fun d => Fin.ext (by match d with | ⟨0, _⟩ => rfl | ⟨1, _⟩ => rfl)
theorem bias_at (n : Fin 131072) (k : Fin 64) :
    idx_main_v2 (idx_main_v3 (idx_main_v4 (idx_main_v5 (ix2 n k)))) = ix2 k lastCol :=
  funext fun d => Fin.ext (by match d with | ⟨0, _⟩ => exact Nat.div_one _ | ⟨1, _⟩ => rfl)
theorem cube_at (n : Fin 131072) (k : Fin 64) (a : Fin 32) : idx_main_v19 (ix2 n k) a = ix3 n k a :=
  funext fun d => Fin.ext (by match d with | ⟨0, _⟩ => rfl | ⟨1, _⟩ => rfl | ⟨2, _⟩ => rfl)
theorem cube_x (n : Fin 131072) (k : Fin 64) (a : Fin 32) : idx_main_v7 (idx_main_v9 (ix3 n k a)) = ix2 n a :=
  funext fun d => Fin.ext (by match d with | ⟨0, _⟩ => rfl | ⟨1, _⟩ => rfl)
theorem cube_mu (n : Fin 131072) (k : Fin 64) (a : Fin 32) : idx_main_v8 (idx_main_v10 (ix3 n k a)) = ix2 k a :=
  funext fun d => Fin.ext (by match d with | ⟨0, _⟩ => rfl | ⟨1, _⟩ => rfl)
theorem cube_sg (n : Fin 131072) (k : Fin 64) (a : Fin 32) : idx_main_v16 (idx_main_v17 (ix3 n k a)) = ix2 k a :=
  funext fun d => Fin.ext (by match d with | ⟨0, _⟩ => rfl | ⟨1, _⟩ => rfl)

/-! ## The stages, composed -/

theorem score_eq (n : Fin 131072) (k : Fin 64) : val_main_v6 (F := Ideal) x0 x3 (ix2 n k) = score x0 x3 n k := by
  rw [val_main_v6_apply, val_main_v1_apply, val_main_v5_apply, val_main_v4_apply, val_main_v3_apply, val_main_v2_apply, bias_at]
  simp only [val_main_v0_apply, dot_left, dot_right]
  rfl

theorem expo_eq (n : Fin 131072) (k : Fin 64) : val_main_v19 (F := Ideal) x0 x1 x2 (ix2 n k) = refExpo x0 x1 x2 n k := by
  rw [val_main_v19_apply]
  simp only [cube_at, val_main_v18_apply, val_main_v12_apply, val_main_v11_apply, val_main_v9_apply, val_main_v7_apply,
    val_main_v10_apply, val_main_v8_apply, val_main_v17_apply, val_main_v16_apply, val_main_v15_apply, val_main_v14_apply,
    val_main_v13_apply, val_main_cst_apply, val_main_cst_0_apply, cube_x, cube_mu, cube_sg]
  rfl

theorem weight_eq (n : Fin 131072) (k : Fin 64) : val_main_v21 (F := Ideal) x0 x1 x2 (ix2 n k) = weight x0 x1 x2 n k := by
  rw [val_main_v21_apply, val_main_v20_apply, expo_eq]
  rfl

/-- The reference's result at row `n` is `G`. -/
theorem result_eq (n : Fin 131072) : val_main_v27 (F := Ideal) x0 x1 x2 x3 (ix1 n) = G x0 x1 x2 x3 n := by
  rw [val_main_v27_apply, val_main_v23_apply, val_main_v26_apply, val_main_v24_apply, val_main_v25_apply]
  simp only [at_row_centre, at_row_centre', val_main_v22_apply, score_eq, weight_eq, val_main_cst_1_apply, val_main_cst_2_apply,
    val_main_cst_3_apply]
  rfl

end Cert.ReferenceIdeal.RefValue

end
-- ==== Proof.Domain.lean ====
/-
  What the precondition says of the argument arrays, on the extended reals: every entry of the input, of the
  centres `μ` and of the spreads `σ` is a real number (its absolute value is below +∞), and no spread is zero.
  (The precondition also bounds `ρ`; the equality of the two results does not use it.)
-/
import proofs.«112125_j89601607729513_2_alg».proof.Defs
import proofs.«112125_j89601607729513_2_alg».proof.Proof.Gen.Pre_finite_inputs
import Idealize.ShloMosaic.Lib.ReduceAll
import Idealize.ShloMosaic.Lib.ValueIdx
import Idealize.ShloMosaic.Lib.Affine

set_option maxRecDepth 16384

noncomputable section

namespace Cert.Domain

open Idealize.ShloMosaic Idealize.ShloMosaic.ValueIdx
open Cert.Pre_finite_inputs Cert.Pre_finite_inputs.Facts

instance : Subsingleton S_.Idx := ⟨fun a b => funext fun d => d.elim0⟩

/-- An extended real whose absolute value is below the pattern of +∞ is a real number. -/
theorem real_of_abs_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- An extended real that the comparison finds different from the pattern of zero is not zero. -/
theorem ne_zero_of_cmp (x : EReal) (h : Ideal.cmp .une x (Ideal.ofBits .f32 0x00000000#32) = 1#1) : x ≠ 0 := by
  have hz : Ideal.ofBits .f32 0x00000000#32 = 0 := by simp [Ideal.ofBits, Ideal.ieee]
  rw [hz] at h
  intro hx
  subst hx
  simp [Ideal.cmp] at h

variable [Cert.Pre_finite_inputs.Facts]

/-- The precondition, opened: the three arrays the exponent reads are real, entry by entry, and no spread is zero. -/
theorem opened (x : FVec Ideal S131072x32 .f32) (mu sg : FVec Ideal S64x32 .f32) (rho : FVec Ideal S64x33 .f32)
    (h : Cert.Pre_finite_inputs.fn (F := Ideal) x mu sg rho = fun _ => 1#1) :
    (∀ i, ∃ r : ℝ, x i = (r : EReal)) ∧ (∀ i, ∃ r : ℝ, mu i = (r : EReal)) ∧ (∀ i, ∃ r : ℝ, sg i = (r : EReal)) ∧ (∀ i, sg i ≠ 0) := by
  have h0 := congrFun h ix0
  dsimp only [Cert.Pre_finite_inputs.fn, Cert.Pre_finite_inputs.fn_part1] at h0
  obtain ⟨h18, h21⟩ := IntOp.andi_eq_one.mp h0
  obtain ⟨h13, h17⟩ := IntOp.andi_eq_one.mp h18
  obtain ⟨h8, h12⟩ := IntOp.andi_eq_one.mp h13
  obtain ⟨h3, h7⟩ := IntOp.andi_eq_one.mp h8
  refine ⟨fun i => ?_, fun i => ?_, fun i => ?_, fun i => ?_⟩
  · exact real_of_abs_lt (x i) (Host.reduce_andi_all _ _ reducesTo_S131072x32_S_d0_1 h_S_ ix0 h3 i)
  · exact real_of_abs_lt (mu i) (Host.reduce_andi_all _ _ reducesTo_S64x32_S_d0_1 h_S_ ix0 h7 i)
  · exact real_of_abs_lt (sg i) (Host.reduce_andi_all _ _ reducesTo_S64x32_S_d0_1 h_S_ ix0 h12 i)
  · exact ne_zero_of_cmp (sg i) (Host.reduce_andi_all _ _ reducesTo_S64x32_S_d0_1 h_S_ ix0 h21 i)

end Cert.Domain

end
-- ==== Proof.lean ====
/-
  The certificate: a Pallas kernel that evaluates a Gaussian-weighted average of linear scores,
      out(n) = Σ_r z(n,r)·w(n,r) / (Σ_r w(n,r) + ε),   z(n,r) = x(n)·ρ(r,:32) + ρ(r,32),   w(n,r) = exp(−E(n,r)),
  against its jnp reference. The two differ in how the exponent `E(n,r) = Σ_a (x(n,a) − μ(r,a))² / (2σ(r,a)²)` is
  formed: the reference subtracts, squares, divides and sums; the kernel expands the square and folds the three
  resulting sums into ONE matrix product of the augmented row `[x² | x | 1]` with a 65×64 table built on the host from
  `c = 1/(2σ²)`, `−2μc` and `Σ_a μ²c`. On the extended reals the expansion is an identity exactly where every
  quantity is a real number, that is for finite `x, μ, σ` with `σ ≠ 0` — the domain on which the reference's own
  quotient is defined, and the precondition of the claim.

  The pieces:
   * the three frames: each program runs to its end, faults nowhere and leaves its arguments unchanged — the two
     kernel programs by the run of their one pallas_call over its 32 row blocks (KernelRun.lean, KernelIdealRun.lean),
     the reference by its straight line of host operations;
   * the idealized kernel is the kernel's own text read at the extended reals: nothing was rewritten, so there is
     nothing to preserve;
   * the values: the kernel's output array ends at `n ↦ G(n)` (KernelValue.lean, through Body.lean, Tables.lean,
     TablesRead.lean and Bridge.lean), the reference's result is the same `G` (RefValue.lean), of arguments that agree.
-/
import proofs.«112125_j89601607729513_2_alg».proof.Defs
import proofs.«112125_j89601607729513_2_alg».proof.Proof.Gen.Kernel
import proofs.«112125_j89601607729513_2_alg».proof.Proof.Gen.KernelIdeal
import proofs.«112125_j89601607729513_2_alg».proof.Proof.Gen.ReferenceIdeal
import proofs.«112125_j89601607729513_2_alg».proof.Proof.Gen.Pre_finite_inputs
import proofs.«112125_j89601607729513_2_alg».proof.Proof.KernelRun
import proofs.«112125_j89601607729513_2_alg».proof.Proof.KernelIdealRun
import proofs.«112125_j89601607729513_2_alg».proof.Proof.KernelValue
import proofs.«112125_j89601607729513_2_alg».proof.Proof.RefValue
import proofs.«112125_j89601607729513_2_alg».proof.Proof.Domain
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_kernel : Cert.frame_Kernel := fun m ρ _ => Cert.Kernel.Run.frame m ρ

/-- The idealized kernel runs and keeps its arguments. -/
theorem frame_kernel_ideal : Cert.frame_KernelIdeal := fun m ρ _ => Cert.KernelIdeal.Run.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The precondition puts every device's arguments on the domain. -/
theorem on_domain (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.ArrayValue.OnDomain m c :=
  Cert.Domain.opened _ _ _ _ (h c)

/-- From arguments that agree, both idealized programs end with the same result, `G` of the arguments row by row. -/
theorem algebraic : Cert.algebraic_KernelIdeal_ReferenceIdeal := by
  intro m ρ m' ρ' hpre hagree
  refine ⟨fun c => Cert.KernelIdeal.ArrayValue.outArray m c,
    Cert.KernelIdeal.ArrayValue.run m ρ (on_domain m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2]
  funext i
  obtain ⟨n, rfl⟩ : ∃ n : Fin 131072, i = ix1 n := ⟨i 0, eq_ix1 i⟩
  exact Cert.ReferenceIdeal.RefValue.result_eq _ _ _ _ n

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
